-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2097152x2 : Shape := ⟨2, ![2097152, 2]⟩
abbrev S4x1x32 : Shape := ⟨3, ![4, 1, 32]⟩
abbrev S4x32 : Shape := ⟨2, ![4, 32]⟩
abbrev S4x32x32 : Shape := ⟨3, ![4, 32, 32]⟩
abbrev S4x32x1 : Shape := ⟨3, ![4, 32, 1]⟩
abbrev S4x1 : Shape := ⟨2, ![4, 1]⟩
abbrev S_ : Shape := ⟨0, ![]⟩

class Facts : Prop where
  bcast_S_S2097152x2 : S_.BroadcastsInDim S2097152x2 (![] : Fin 0 → Fin S2097152x2.rank)
  reducesTo_S2097152x2_S_d0_1 : S2097152x2.ReducesTo [0, 1] S_
  h_S_ : 0 < S_.numel
  bcast_S_S4x1x32 : S_.BroadcastsInDim S4x1x32 (![] : Fin 0 → Fin S4x1x32.rank)
  reducesTo_S4x1x32_S_d0_1_2 : S4x1x32.ReducesTo [0, 1, 2] S_
  bcast_S_S4x32 : S_.BroadcastsInDim S4x32 (![] : Fin 0 → Fin S4x32.rank)
  reducesTo_S4x32_S_d0_1 : S4x32.ReducesTo [0, 1] S_
  bcast_S_S4x32x32 : S_.BroadcastsInDim S4x32x32 (![] : Fin 0 → Fin S4x32x32.rank)
  reducesTo_S4x32x32_S_d0_1_2 : S4x32x32.ReducesTo [0, 1, 2] S_
  bcast_S_S4x32x1 : S_.BroadcastsInDim S4x32x1 (![] : Fin 0 → Fin S4x32x1.rank)
  reducesTo_S4x32x1_S_d0_1_2 : S4x32x1.ReducesTo [0, 1, 2] S_
  bcast_S_S4x1 : S_.BroadcastsInDim S4x1 (![] : Fin 0 → Fin S4x1.rank)
  reducesTo_S4x1_S_d0_1 : S4x1.ReducesTo [0, 1] S_

variable [Facts]

def fn_part1 {F : FTy → Type} [FloatOps F] (main_arg4 : FVec F S4x32 .f32) (main_arg5 : FVec F S4x32x1 .f32) (main_arg6 : FVec F S4x1 .f32) (main_v13 : IVec S_ 1) (main_v16 : IVec S4x32x32 1) : IVec S_ 1 :=
  let main_c_5 : IVec S_ 1 := constantI S_ 1 1#1
  let main_v17 : IVec S_ 1 := (fun x v => Host.reduce IntOp.andi x v reducesTo_S4x32x32_S_d0_1_2 h_S_) main_v16 main_c_5
  let main_v18 : IVec S_ 1 := andi main_v13 main_v17
  let main_v19 : FVec F S4x32 .f32 := Host.absf main_arg4
  let main_cst_6 : FVec F S_ .f32 := constant S_ .f32 0x7F800000#32
  let main_v20 : FVec F S4x32 .f32 := broadcastInDim S4x32 ![] bcast_S_S4x32 main_cst_6
  let main_v21 : IVec S4x32 1 := cmpf .olt main_v19 main_v20
  let main_c_7 : IVec S_ 1 := constantI S_ 1 1#1
  let main_v22 : IVec S_ 1 := (fun x v => Host.reduce IntOp.andi x v reducesTo_S4x32_S_d0_1 h_S_) main_v21 main_c_7
  let main_v23 : IVec S_ 1 := andi main_v18 main_v22
  let main_v24 : FVec F S4x32x1 .f32 := Host.absf main_arg5
  let main_cst_8 : FVec F S_ .f32 := constant S_ .f32 0x7F800000#32
  let main_v25 : FVec F S4x32x1 .f32 := broadcastInDim S4x32x1 ![] bcast_S_S4x32x1 main_cst_8
  let main_v26 : IVec S4x32x1 1 := cmpf .olt main_v24 main_v25
  let main_c_9 : IVec S_ 1 := constantI S_ 1 1#1
  let main_v27 : IVec S_ 1 := (fun x v => Host.reduce IntOp.andi x v reducesTo_S4x32x1_S_d0_1_2 h_S_) main_v26 main_c_9
  let main_v28 : IVec S_ 1 := andi main_v23 main_v27
  let main_v29 : FVec F S4x1 .f32 := Host.absf main_arg6
  let main_cst_10 : FVec F S_ .f32 := constant S_ .f32 0x7F800000#32
  let main_v30 : FVec F S4x1 .f32 := broadcastInDim S4x1 ![] bcast_S_S4x1 main_cst_10
  let main_v31 : IVec S4x1 1 := cmpf .olt main_v29 main_v30
  let main_c_11 : IVec S_ 1 := constantI S_ 1 1#1
  let main_v32 : IVec S_ 1 := (fun x v => Host.reduce IntOp.andi x v reducesTo_S4x1_S_d0_1 h_S_) main_v31 main_c_11
  let main_v33 : IVec S_ 1 := andi main_v28 main_v32
  main_v33

def fn {F : FTy → Type} [FloatOps F] (main_arg0 : FVec F S2097152x2 .f32) (main_arg1 : FVec F S4x1x32 .f32) (main_arg2 : FVec F S4x32 .f32) (main_arg3 : FVec F S4x32x32 .f32) (main_arg4 : FVec F S4x32 .f32) (main_arg5 : FVec F S4x32x1 .f32) (main_arg6 : FVec F S4x1 .f32) : IVec S_ 1 :=
  let main_v0 : FVec F S2097152x2 .f32 := Host.absf main_arg0
  let main_cst : FVec F S_ .f32 := constant S_ .f32 0x7F800000#32
  let main_v1 : FVec F S2097152x2 .f32 := broadcastInDim S2097152x2 ![] bcast_S_S2097152x2 main_cst
  let main_v2 : IVec S2097152x2 1 := cmpf .olt main_v0 main_v1
  let main_c : IVec S_ 1 := constantI S_ 1 1#1
  let main_v3 : IVec S_ 1 := (fun x v => Host.reduce IntOp.andi x v reducesTo_S2097152x2_S_d0_1 h_S_) main_v2 main_c
  let main_v4 : FVec F S4x1x32 .f32 := Host.absf main_arg1
  let main_cst_0 : FVec F S_ .f32 := constant S_ .f32 0x7F800000#32
  let main_v5 : FVec F S4x1x32 .f32 := broadcastInDim S4x1x32 ![] bcast_S_S4x1x32 main_cst_0
  let main_v6 : IVec S4x1x32 1 := cmpf .olt main_v4 main_v5
  let main_c_1 : IVec S_ 1 := constantI S_ 1 1#1
  let main_v7 : IVec S_ 1 := (fun x v => Host.reduce IntOp.andi x v reducesTo_S4x1x32_S_d0_1_2 h_S_) main_v6 main_c_1
  let main_v8 : IVec S_ 1 := andi main_v3 main_v7
  let main_v9 : FVec F S4x32 .f32 := Host.absf main_arg2
  let main_cst_2 : FVec F S_ .f32 := constant S_ .f32 0x7F800000#32
  let main_v10 : FVec F S4x32 .f32 := broadcastInDim S4x32 ![] bcast_S_S4x32 main_cst_2
  let main_v11 : IVec S4x32 1 := cmpf .olt main_v9 main_v10
  let main_c_3 : IVec S_ 1 := constantI S_ 1 1#1
  let main_v12 : IVec S_ 1 := (fun x v => Host.reduce IntOp.andi x v reducesTo_S4x32_S_d0_1 h_S_) main_v11 main_c_3
  let main_v13 : IVec S_ 1 := andi main_v8 main_v12
  let main_v14 : FVec F S4x32x32 .f32 := Host.absf main_arg3
  let main_cst_4 : FVec F S_ .f32 := constant S_ .f32 0x7F800000#32
  let main_v15 : FVec F S4x32x32 .f32 := broadcastInDim S4x32x32 ![] bcast_S_S4x32x32 main_cst_4
  let main_v16 : IVec S4x32x32 1 := cmpf .olt main_v14 main_v15
  fn_part1 (F := F) main_arg4 main_arg5 main_arg6 main_v13 main_v16
-- ==== Kernel.lean ====
abbrev S2097152x2 : Shape := ⟨2, ![2097152, 2]⟩
abbrev S4x1x32 : Shape := ⟨3, ![4, 1, 32]⟩
abbrev S4x32 : Shape := ⟨2, ![4, 32]⟩
abbrev S4x32x32 : Shape := ⟨3, ![4, 32, 32]⟩
abbrev S4x32x1 : Shape := ⟨3, ![4, 32, 1]⟩
abbrev S4x1 : Shape := ⟨2, ![4, 1]⟩
abbrev S2x2097152 : Shape := ⟨2, ![2, 2097152]⟩
abbrev S4x1x1 : Shape := ⟨3, ![4, 1, 1]⟩
abbrev S1x2097152 : Shape := ⟨2, ![1, 2097152]⟩
abbrev S2x131072 : Shape := ⟨2, ![2, 131072]⟩
abbrev S1x131072 : Shape := ⟨2, ![1, 131072]⟩
abbrev S1x8192 : Shape := ⟨2, ![1, 8192]⟩
abbrev S1x32x1 : Shape := ⟨3, ![1, 32, 1]⟩
abbrev S32x1 : Shape := ⟨2, ![32, 1]⟩
abbrev S32x8192 : Shape := ⟨2, ![32, 8192]⟩
abbrev S1x32x32 : Shape := ⟨3, ![1, 32, 32]⟩
abbrev S32x32 : Shape := ⟨2, ![32, 32]⟩
abbrev S1x1x32 : Shape := ⟨3, ![1, 1, 32]⟩
abbrev S1x32 : Shape := ⟨2, ![1, 32]⟩
abbrev S1x1x1 : Shape := ⟨3, ![1, 1, 1]⟩
abbrev S1x1 : Shape := ⟨2, ![1, 1]⟩
abbrev S2097152 : Shape := ⟨1, ![2097152]⟩

abbrev nBuf : Space → Nat
  | .hbm => 18
  | .vmem => 12
  | .smem => 0
  | _ => 0

abbrev bufTy : (tb : Table) → Fin (tcTables nBuf tb) → BufTy
  | .hbm, ⟨0, _⟩ => ⟨S2097152x2, .f32⟩
  | .hbm, ⟨1, _⟩ => ⟨S4x1x32, .f32⟩
  | .hbm, ⟨2, _⟩ => ⟨S4x32, .f32⟩
  | .hbm, ⟨3, _⟩ => ⟨S4x32x32, .f32⟩
  | .hbm, ⟨4, _⟩ => ⟨S4x32, .f32⟩
  | .hbm, ⟨5, _⟩ => ⟨S4x32x1, .f32⟩
  | .hbm, ⟨6, _⟩ => ⟨S4x1, .f32⟩
  | .hbm, ⟨7, _⟩ => ⟨S2x2097152, .f32⟩
  | .hbm, ⟨8, _⟩ => ⟨S4x32x1, .f32⟩
  | .hbm, ⟨9, _⟩ => ⟨S4x32x32, .f32⟩
  | .hbm, ⟨10, _⟩ => ⟨S4x1x32, .f32⟩
  | .hbm, ⟨11, _⟩ => ⟨S4x32x1, .f32⟩
  | .hbm, ⟨12, _⟩ => ⟨S4x32x1, .f32⟩
  | .hbm, ⟨13, _⟩ => ⟨S4x1x1, .f32⟩
  | .hbm, ⟨14, _⟩ => ⟨S2x2097152, .f32⟩
  | .hbm, ⟨15, _⟩ => ⟨S1x2097152, .f32⟩
  | .hbm, ⟨16, _⟩ => ⟨S2097152x2, .f32⟩
  | .hbm, ⟨17, _⟩ => ⟨S2097152, .f32⟩
  | .local _ .vmem, ⟨0, _⟩ => ⟨S2x131072, .f32⟩
  | .local _ .vmem, ⟨1, _⟩ => ⟨S2x131072, .f32⟩
  | .local _ .vmem, ⟨2, _⟩ => ⟨S4x32x1, .f32⟩
  | .local _ .vmem, ⟨3, _⟩ => ⟨S4x32x1, .f32⟩
  | .local _ .vmem, ⟨4, _⟩ => ⟨S4x32x32, .f32⟩
  | .local _ .vmem, ⟨5, _⟩ => ⟨S4x32x1, .f32⟩
  | .local _ .vmem, ⟨6, _⟩ => ⟨S4x1x32, .f32⟩
  | .local _ .vmem, ⟨7, _⟩ => ⟨S4x1x1, .f32⟩
  | .local _ .vmem, ⟨8, _⟩ => ⟨S2x131072, .f32⟩
  | .local _ .vmem, ⟨9, _⟩ => ⟨S2x131072, .f32⟩
  | .local _ .vmem, ⟨10, _⟩ => ⟨S1x131072, .f32⟩
  | .local _ .vmem, ⟨11, _⟩ => ⟨S1x131072, .f32⟩
  | _, _ => ⟨S2097152x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c8192_i32 : BitVec 32 := 8192#32
  let v1 : BitVec 32 := Scalar.muli arg10 c8192_i32
  v1
def k0_off1 (k0_t1 : Fin k0_t1_loop.trips) : Fin 2 → Nat :=
  let c0 : Index := 0#32
  let c0_i32 : BitVec 32 := 0#32
  let c1_i32 : BitVec 32 := 1#32
  let arg10 : BitVec 32 := Scf.iv c0_i32 c1_i32 k0_t1
  let c8192_i32 : BitVec 32 := 8192#32
  let v1 : BitVec 32 := Scalar.muli arg10 c8192_i32
  let v2 : BitVec 32 := v1
  let v3 : Index := Scalar.indexCast v2
  ![0, v3.toNat]
def k0_off2 (k0_t1 : Fin k0_t1_loop.trips) : Fin 2 → Nat :=
  let c1 : Index := 1#32
  let c0_i32 : BitVec 32 := 0#32
  let c1_i32 : BitVec 32 := 1#32
  let arg10 : BitVec 32 := Scf.iv c0_i32 c1_i32 k0_t1
  let c8192_i32 : BitVec 32 := 8192#32
  let v1 : BitVec 32 := Scalar.muli arg10 c8192_i32
  let v2 : BitVec 32 := v1
  let v6 : Index := Scalar.indexCast v2
  ![1, v6.toNat]
def k0_off3 (k0_t1 : Fin k0_t1_loop.trips) : Fin 2 → Nat :=
  let c0_92 : Index := 0#32
  let c0_i32 : BitVec 32 := 0#32
  let c1_i32 : BitVec 32 := 1#32
  let arg10 : BitVec 32 := Scf.iv c0_i32 c1_i32 k0_t1
  let c8192_i32 : BitVec 32 := 8192#32
  let v1 : BitVec 32 := Scalar.muli arg10 c8192_i32
  let v2 : BitVec 32 := v1
  let v120 : Index := Scalar.indexCast v2
  ![0, v120.toNat]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x32x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x131072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x131072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S2097152x2_S2x2097152_1_0 : S2097152x2.Transposes [1, 0] S2x2097152
  transposes_S4x1x32_S4x32x1_0_2_1 : S4x1x32.Transposes [0, 2, 1] S4x32x1
  transposes_S4x32x32_S4x32x32_0_2_1 : S4x32x32.Transposes [0, 2, 1] S4x32x32
  transposes_S4x32x1_S4x1x32_0_2_1 : S4x32x1.Transposes [0, 2, 1] S4x1x32
  bcast_S4x32_S4x32x1_0_1 : S4x32.BroadcastsInDim S4x32x1 (![0, 1] : Fin 2 → Fin S4x32x1.rank)
  bcast_S4x1_S4x1x1_0_1 : S4x1.BroadcastsInDim S4x1x1 (![0, 1] : Fin 2 → Fin S4x1x1.rank)
  h_S1x8192 : 0 < S1x8192.numel
  shapeCasts_S1x8192_S1x8192 : S1x8192.ShapeCasts S1x8192
  inb_S4x32x1_S1x32x1_0_0_0 : ∀ a, (![0, 0, 0] : Fin 3 → Nat) a + S1x32x1.size a ≤ S4x32x1.size a
  h_S1x32x1 : 0 < S1x32x1.numel
  shapeCasts_S1x32x1_S32x1 : S1x32x1.ShapeCasts S32x1
  broadcasts_S32x1_S32x8192 : S32x1.Broadcasts S32x8192
  inb_S4x32x32_S1x32x32_0_0_0 : ∀ a, (![0, 0, 0] : Fin 3 → Nat) a + S1x32x32.size a ≤ S4x32x32.size a
  h_S1x32x32 : 0 < S1x32x32.numel
  shapeCasts_S1x32x32_S32x32 : S1x32x32.ShapeCasts S32x32
  inb_S4x1x32_S1x1x32_0_0_0 : ∀ a, (![0, 0, 0] : Fin 3 → Nat) a + S1x1x32.size a ≤ S4x1x32.size a
  h_S1x1x32 : 0 < S1x1x32.numel
  shapeCasts_S1x1x32_S1x32 : S1x1x32.ShapeCasts S1x32
  inb_S4x1x1_S1x1x1_0_0_0 : ∀ a, (![0, 0, 0] : Fin 3 → Nat) a + S1x1x1.size a ≤ S4x1x1.size a
  h_S1x1x1 : 0 < S1x1x1.numel
  shapeCasts_S1x1x1_S1x1 : S1x1x1.ShapeCasts S1x1
  broadcasts_S1x1_S1x8192 : S1x1.Broadcasts S1x8192
  inb_S4x32x1_S1x32x1_1_0_0 : ∀ a, (![1, 0, 0] : Fin 3 → Nat) a + S1x32x1.size a ≤ S4x32x1.size a
  inb_S4x32x32_S1x32x32_1_0_0 : ∀ a, (![1, 0, 0] : Fin 3 → Nat) a + S1x32x32.size a ≤ S4x32x32.size a
  inb_S4x1x32_S1x1x32_1_0_0 : ∀ a, (![1, 0, 0] : Fin 3 → Nat) a + S1x1x32.size a ≤ S4x1x32.size a
  inb_S4x1x1_S1x1x1_1_0_0 : ∀ a, (![1, 0, 0] : Fin 3 → Nat) a + S1x1x1.size a ≤ S4x1x1.size a
  inb_S4x32x1_S1x32x1_2_0_0 : ∀ a, (![2, 0, 0] : Fin 3 → Nat) a + S1x32x1.size a ≤ S4x32x1.size a
  inb_S4x32x32_S1x32x32_2_0_0 : ∀ a, (![2, 0, 0] : Fin 3 → Nat) a + S1x32x32.size a ≤ S4x32x32.size a
  inb_S4x1x32_S1x1x32_2_0_0 : ∀ a, (![2, 0, 0] : Fin 3 → Nat) a + S1x1x32.size a ≤ S4x1x32.size a
  inb_S4x1x1_S1x1x1_2_0_0 : ∀ a, (![2, 0, 0] : Fin 3 → Nat) a + S1x1x1.size a ≤ S4x1x1.size a
  inb_S4x32x1_S1x32x1_3_0_0 : ∀ a, (![3, 0, 0] : Fin 3 → Nat) a + S1x32x1.size a ≤ S4x32x1.size a
  inb_S4x32x32_S1x32x32_3_0_0 : ∀ a, (![3, 0, 0] : Fin 3 → Nat) a + S1x32x32.size a ≤ S4x32x32.size a
  inb_S4x1x32_S1x1x32_3_0_0 : ∀ a, (![3, 0, 0] : Fin 3 → Nat) a + S1x1x32.size a ≤ S4x1x32.size a
  inb_S4x1x1_S1x1x1_3_0_0 : ∀ a, (![3, 0, 0] : Fin 3 → Nat) a + S1x1x1.size a ≤ S4x1x1.size a
  transposes_S2x2097152_S2097152x2_1_0 : S2x2097152.Transposes [1, 0] S2097152x2
  shapeCasts_S1x2097152_S2097152 : S1x2097152.ShapeCasts S2097152
  dot_S32x1_S1x8192_S32x8192_1_0_0_1_n_n_wf : DotDims.WF S32x1 S1x8192 S32x8192 [1] [0] [0] [1] [] []
  dot_S32x32_S32x8192_S32x8192_1_0_0_1_n_n_wf : DotDims.WF S32x32 S32x8192 S32x8192 [1] [0] [0] [1] [] []
  dot_S1x32_S32x8192_S1x8192_1_0_0_1_n_n_wf : DotDims.WF S1x32 S32x8192 S1x8192 [1] [0] [0] [1] [] []
  hrank0 : 0 < grid0.rank
  k0_t1_ok : k0_t1_loop.OK
  k0_mult1_dvd : ∀ k0_t1 : Fin k0_t1_loop.trips, 8192 ∣ (k0_mult1 k0_t1).toNat
  k0_off1_inb : ∀ k0_t1 : Fin k0_t1_loop.trips, ∀ a, (k0_off1 k0_t1) a + S1x8192.size a ≤ S2x131072.size a
  k0_off2_inb : ∀ k0_t1 : Fin k0_t1_loop.trips, ∀ a, (k0_off2 k0_t1) a + S1x8192.size a ≤ S2x131072.size a
  k0_off3_inb : ∀ k0_t1 : Fin k0_t1_loop.trips, ∀ a, (k0_off3 k0_t1) a + S1x8192.size a ≤ S1x131072.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x131072.size a ≤ S2x2097152.size a
  hwx0_0 : ∀ i : grid0.Coords, EltTy.bits .f32 = 32 ∨ (Rect.block (s := S2x2097152) S2x131072.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x32x1.size a ≤ S4x32x1.size a
  hwx0_1 : ∀ i : grid0.Coords, EltTy.bits .f32 = 32 ∨ (Rect.block (s := S4x32x1) S4x32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x32x1.size a ≤ S4x32x1.size a
  hwx0_2 : ∀ i : grid0.Coords, EltTy.bits .f32 = 32 ∨ (Rect.block (s := S4x32x1) S4x32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x32x32.size a ≤ S4x32x32.size a
  hwx0_3 : ∀ i : grid0.Coords, EltTy.bits .f32 = 32 ∨ (Rect.block (s := S4x32x32) S4x32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x32x1.size a ≤ S4x32x1.size a
  hwx0_4 : ∀ i : grid0.Coords, EltTy.bits .f32 = 32 ∨ (Rect.block (s := S4x32x1) S4x32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1x32.size a ≤ S4x1x32.size a
  hwx0_5 : ∀ i : grid0.Coords, EltTy.bits .f32 = 32 ∨ (Rect.block (s := S4x1x32) S4x1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1x1.size a ≤ S4x1x1.size a
  hwx0_6 : ∀ i : grid0.Coords, EltTy.bits .f32 = 32 ∨ (Rect.block (s := S4x1x1) S4x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2x131072.size a ≤ S2x2097152.size a
  hwx0_7 : ∀ i : grid0.Coords, EltTy.bits .f32 = 32 ∨ (Rect.block (s := S2x2097152) S2x131072.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x131072.size a ≤ S1x2097152.size a
  hwx0_8 : ∀ i : grid0.Coords, EltTy.bits .f32 = 32 ∨ (Rect.block (s := S1x2097152) S1x131072.size (cc0_transform_8 i) (hinb0_8 i)).WholeWords (EltTy.packing .f32)

variable [Facts₀]

def dot_S32x1_S1x8192_S32x8192_1_0_0_1_n_n : DotDims S32x1 S1x8192 S32x8192 where
  lhsContracting := [1]
  rhsContracting := [0]
  lhsNonContracting := [0]
  rhsNonContracting := [1]
  lhsBatch := []
  rhsBatch := []
  wf := dot_S32x1_S1x8192_S32x8192_1_0_0_1_n_n_wf
def dot_S32x32_S32x8192_S32x8192_1_0_0_1_n_n : DotDims S32x32 S32x8192 S32x8192 where
  lhsContracting := [1]
  rhsContracting := [0]
  lhsNonContracting := [0]
  rhsNonContracting := [1]
  lhsBatch := []
  rhsBatch := []
  wf := dot_S32x32_S32x8192_S32x8192_1_0_0_1_n_n_wf
def dot_S1x32_S32x8192_S1x8192_1_0_0_1_n_n : DotDims S1x32 S32x8192 S1x8192 where
  lhsContracting := [1]
  rhsContracting := [0]
  lhsNonContracting := [0]
  rhsNonContracting := [1]
  lhsBatch := []
  rhsBatch := []
  wf := dot_S1x32_S32x8192_S1x8192_1_0_0_1_n_n_wf

abbrev win0_0 : Pipeline.Window sig grid0 :=
  Pipeline.Window.ofSpec (Memref.whole main_v0) S2x131072.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x32x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4x32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S4x32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S4x1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7_0) S2x131072.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v7_1) S1x131072.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2097152x2 : Shape := ⟨2, ![2097152, 2]⟩
abbrev S4x1x32 : Shape := ⟨3, ![4, 1, 32]⟩
abbrev S4x32 : Shape := ⟨2, ![4, 32]⟩
abbrev S4x32x32 : Shape := ⟨3, ![4, 32, 32]⟩
abbrev S4x32x1 : Shape := ⟨3, ![4, 32, 1]⟩
abbrev S4x1 : Shape := ⟨2, ![4, 1]⟩
abbrev S2097152x1 : Shape := ⟨2, ![2097152, 1]⟩
abbrev S1x1x32 : Shape := ⟨3, ![1, 1, 32]⟩
abbrev S1x32 : Shape := ⟨2, ![1, 32]⟩
abbrev S2097152x32 : Shape := ⟨2, ![2097152, 32]⟩
abbrev S32 : Shape := ⟨1, ![32]⟩
abbrev S_ : Shape := ⟨0, ![]⟩
abbrev S1x32x32 : Shape := ⟨3, ![1, 32, 32]⟩
abbrev S32x32 : Shape := ⟨2, ![32, 32]⟩
abbrev S1x32x1 : Shape := ⟨3, ![1, 32, 1]⟩
abbrev S32x1 : Shape := ⟨2, ![32, 1]⟩
abbrev S1x1 : Shape := ⟨2, ![1, 1]⟩
abbrev S1 : Shape := ⟨1, ![1]⟩
abbrev S2097152 : Shape := ⟨1, ![2097152]⟩

abbrev nBuf : Space → Nat
  | .hbm => 138
  | .vmem => 0
  | .smem => 0
  | _ => 0

abbrev hbmTy0_0 (i : Nat) : BufTy := match i % 128 with
  | 0 => ⟨S2097152x2, .f32⟩
  | 1 => ⟨S4x1x32, .f32⟩
  | 2 => ⟨S4x32, .f32⟩
  | 3 => ⟨S4x32x32, .f32⟩
  | 4 => ⟨S4x32, .f32⟩
  | 5 => ⟨S4x32x1, .f32⟩
  | 6 => ⟨S4x1, .f32⟩
  | 7 => ⟨S2097152x1, .f32⟩
  | 8 => ⟨S2097152x1, .f32⟩
  | 9 => ⟨S1x1x32, .f32⟩
  | 10 => ⟨S1x32, .f32⟩
  | 11 => ⟨S2097152x32, .f32⟩
  | 12 => ⟨S1x32, .f32⟩
  | 13 => ⟨S32, .f32⟩
  | 14 => ⟨S1x32, .f32⟩
  | 15 => ⟨S2097152x32, .f32⟩
  | 16 => ⟨S2097152x32, .f32⟩
  | 17 => ⟨S_, .f32⟩
  | 18 => ⟨S2097152x32, .f32⟩
  | 19 => ⟨S2097152x32, .f32⟩
  | 20 => ⟨S1x32x32, .f32⟩
  | 21 => ⟨S32x32, .f32⟩
  | 22 => ⟨S2097152x32, .f32⟩
  | 23 => ⟨S1x32, .f32⟩
  | 24 => ⟨S32, .f32⟩
  | 25 => ⟨S1x32, .f32⟩
  | 26 => ⟨S2097152x32, .f32⟩
  | 27 => ⟨S2097152x32, .f32⟩
  | 28 => ⟨S_, .f32⟩
  | 29 => ⟨S2097152x32, .f32⟩
  | 30 => ⟨S2097152x32, .f32⟩
  | 31 => ⟨S1x32x1, .f32⟩
  | 32 => ⟨S32x1, .f32⟩
  | 33 => ⟨S2097152x1, .f32⟩
  | 34 => ⟨S1x1, .f32⟩
  | 35 => ⟨S1, .f32⟩
  | 36 => ⟨S1x1, .f32⟩
  | 37 => ⟨S2097152x1, .f32⟩
  | 38 => ⟨S2097152x1, .f32⟩
  | 39 => ⟨S2097152x1, .f32⟩
  | 40 => ⟨S2097152x1, .f32⟩
  | 41 => ⟨S1x1x32, .f32⟩
  | 42 => ⟨S1x32, .f32⟩
  | 43 => ⟨S2097152x32, .f32⟩
  | 44 => ⟨S1x32, .f32⟩
  | 45 => ⟨S32, .f32⟩
  | 46 => ⟨S1x32, .f32⟩
  | 47 => ⟨S2097152x32, .f32⟩
  | 48 => ⟨S2097152x32, .f32⟩
  | 49 => ⟨S_, .f32⟩
  | 50 => ⟨S2097152x32, .f32⟩
  | 51 => ⟨S2097152x32, .f32⟩
  | 52 => ⟨S1x32x32, .f32⟩
  | 53 => ⟨S32x32, .f32⟩
  | 54 => ⟨S2097152x32, .f32⟩
  | 55 => ⟨S1x32, .f32⟩
  | 56 => ⟨S32, .f32⟩
  | 57 => ⟨S1x32, .f32⟩
  | 58 => ⟨S2097152x32, .f32⟩
  | 59 => ⟨S2097152x32, .f32⟩
  | 60 => ⟨S_, .f32⟩
  | 61 => ⟨S2097152x32, .f32⟩
  | 62 => ⟨S2097152x32, .f32⟩
  | 63 => ⟨S1x32x1, .f32⟩
  | 64 => ⟨S32x1, .f32⟩
  | 65 => ⟨S2097152x1, .f32⟩
  | 66 => ⟨S1x1, .f32⟩
  | 67 => ⟨S1, .f32⟩
  | 68 => ⟨S1x1, .f32⟩
  | 69 => ⟨S2097152x1, .f32⟩
  | 70 => ⟨S2097152x1, .f32⟩
  | 71 => ⟨S2097152x1, .f32⟩
  | 72 => ⟨S1x1x32, .f32⟩
  | 73 => ⟨S1x32, .f32⟩
  | 74 => ⟨S2097152x32, .f32⟩
  | 75 => ⟨S1x32, .f32⟩
  | 76 => ⟨S32, .f32⟩
  | 77 => ⟨S1x32, .f32⟩
  | 78 => ⟨S2097152x32, .f32⟩
  | 79 => ⟨S2097152x32, .f32⟩
  | 80 => ⟨S_, .f32⟩
  | 81 => ⟨S2097152x32, .f32⟩
  | 82 => ⟨S2097152x32, .f32⟩
  | 83 => ⟨S1x32x32, .f32⟩
  | 84 => ⟨S32x32, .f32⟩
  | 85 => ⟨S2097152x32, .f32⟩
  | 86 => ⟨S1x32, .f32⟩
  | 87 => ⟨S32, .f32⟩
  | 88 => ⟨S1x32, .f32⟩
  | 89 => ⟨S2097152x32, .f32⟩
  | 90 => ⟨S2097152x32, .f32⟩
  | 91 => ⟨S_, .f32⟩
  | 92 => ⟨S2097152x32, .f32⟩
  | 93 => ⟨S2097152x32, .f32⟩
  | 94 => ⟨S1x32x1, .f32⟩
  | 95 => ⟨S32x1, .f32⟩
  | 96 => ⟨S2097152x1, .f32⟩
  | 97 => ⟨S1x1, .f32⟩
  | 98 => ⟨S1, .f32⟩
  | 99 => ⟨S1x1, .f32⟩
  | 100 => ⟨S2097152x1, .f32⟩
  | 101 => ⟨S2097152x1, .f32⟩
  | 102 => ⟨S2097152x1, .f32⟩
  | 103 => ⟨S2097152x1, .f32⟩
  | 104 => ⟨S1x1x32, .f32⟩
  | 105 => ⟨S1x32, .f32⟩
  | 106 => ⟨S2097152x32, .f32⟩
  | 107 => ⟨S1x32, .f32⟩
  | 108 => ⟨S32, .f32⟩
  | 109 => ⟨S1x32, .f32⟩
  | 110 => ⟨S2097152x32, .f32⟩
  | 111 => ⟨S2097152x32, .f32⟩
  | 112 => ⟨S_, .f32⟩
  | 113 => ⟨S2097152x32, .f32⟩
  | 114 => ⟨S2097152x32, .f32⟩
  | 115 => ⟨S1x32x32, .f32⟩
  | 116 => ⟨S32x32, .f32⟩
  | 117 => ⟨S2097152x32, .f32⟩
  | 118 => ⟨S1x32, .f32⟩
  | 119 => ⟨S32, .f32⟩
  | 120 => ⟨S1x32, .f32⟩
  | 121 => ⟨S2097152x32, .f32⟩
  | 122 => ⟨S2097152x32, .f32⟩
  | 123 => ⟨S_, .f32⟩
  | 124 => ⟨S2097152x32, .f32⟩
  | 125 => ⟨S2097152x32, .f32⟩
  | 126 => ⟨S1x32x1, .f32⟩
  | 127 => ⟨S32x1, .f32⟩
  | _ => ⟨S2097152x2, .f32⟩

abbrev hbmTy0_1 (i : Nat) : BufTy := match i % 128 with
  | 0 => ⟨S2097152x1, .f32⟩
  | 1 => ⟨S1x1, .f32⟩
  | 2 => ⟨S1, .f32⟩
  | 3 => ⟨S1x1, .f32⟩
  | 4 => ⟨S2097152x1, .f32⟩
  | 5 => ⟨S2097152x1, .f32⟩
  | 6 => ⟨S2097152x1, .f32⟩
  | 7 => ⟨S2097152x2, .f32⟩
  | 8 => ⟨S2097152x1, .f32⟩
  | 9 => ⟨S2097152, .f32⟩
  | _ => ⟨S2097152x2, .f32⟩

abbrev hbmTy (i : Nat) : BufTy := match i / 128 with
  | 0 => hbmTy0_0 i
  | 1 => hbmTy0_1 i
  | _ => ⟨S2097152x2, .f32⟩

abbrev bufTy : (tb : Table) → Fin (tcTables nBuf tb) → BufTy
  | .hbm, ⟨i, _⟩ => hbmTy i
  | _, _ => ⟨S2097152x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call1_cst : Ref sig .tc := ⟨.hbm, 28, rfl⟩
abbrev main_call1_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call2_cst : Ref sig .tc := ⟨.hbm, 49, rfl⟩
abbrev main_call2_v0 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_call3_cst : Ref sig .tc := ⟨.hbm, 60, rfl⟩
abbrev main_call3_v0 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_call4_cst : Ref sig .tc := ⟨.hbm, 80, rfl⟩
abbrev main_call4_v0 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_call5_cst : Ref sig .tc := ⟨.hbm, 91, rfl⟩
abbrev main_call5_v0 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_call6_cst : Ref sig .tc := ⟨.hbm, 112, rfl⟩
abbrev main_call6_v0 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_call7_cst : Ref sig .tc := ⟨.hbm, 123, rfl⟩
abbrev main_call7_v0 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩

abbrev nD : Nat := 1
abbrev τ : Topo := Topo.v7x

variable {F : FTy → Type} [FloatOps F]

class Facts₀ : Prop where
  slices_S2097152x2_S2097152x1_0_0 : S2097152x2.Slices ![0, 0] S2097152x1
  slices_S2097152x2_S2097152x1_0_1 : S2097152x2.Slices ![0, 1] S2097152x1
  slices_S4x1x32_S1x1x32_0_0_0 : S4x1x32.Slices ![0, 0, 0] S1x1x32
  shapeCasts_S1x1x32_S1x32 : S1x1x32.ShapeCasts S1x32
  slices_S4x32_S1x32_0_0 : S4x32.Slices ![0, 0] S1x32
  shapeCasts_S1x32_S32 : S1x32.ShapeCasts S32
  bcast_S32_S1x32_1 : S32.BroadcastsInDim S1x32 (![1] : Fin 1 → Fin S1x32.rank)
  bcast_S1x32_S2097152x32_0_1 : S1x32.BroadcastsInDim S2097152x32 (![0, 1] : Fin 2 → Fin S2097152x32.rank)
  bcast_S_S2097152x32 : S_.BroadcastsInDim S2097152x32 (![] : Fin 0 → Fin S2097152x32.rank)
  slices_S4x32x32_S1x32x32_0_0_0 : S4x32x32.Slices ![0, 0, 0] S1x32x32
  shapeCasts_S1x32x32_S32x32 : S1x32x32.ShapeCasts S32x32
  slices_S4x32x1_S1x32x1_0_0_0 : S4x32x1.Slices ![0, 0, 0] S1x32x1
  shapeCasts_S1x32x1_S32x1 : S1x32x1.ShapeCasts S32x1
  slices_S4x1_S1x1_0_0 : S4x1.Slices ![0, 0] S1x1
  shapeCasts_S1x1_S1 : S1x1.ShapeCasts S1
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  slices_S4x1x32_S1x1x32_1_0_0 : S4x1x32.Slices ![1, 0, 0] S1x1x32
  slices_S4x32_S1x32_1_0 : S4x32.Slices ![1, 0] S1x32
  slices_S4x32x32_S1x32x32_1_0_0 : S4x32x32.Slices ![1, 0, 0] S1x32x32
  slices_S4x32x1_S1x32x1_1_0_0 : S4x32x1.Slices ![1, 0, 0] S1x32x1
  slices_S4x1_S1x1_1_0 : S4x1.Slices ![1, 0] S1x1
  slices_S4x1x32_S1x1x32_2_0_0 : S4x1x32.Slices ![2, 0, 0] S1x1x32
  slices_S4x32_S1x32_2_0 : S4x32.Slices ![2, 0] S1x32
  slices_S4x32x32_S1x32x32_2_0_0 : S4x32x32.Slices ![2, 0, 0] S1x32x32
  slices_S4x32x1_S1x32x1_2_0_0 : S4x32x1.Slices ![2, 0, 0] S1x32x1
  slices_S4x1_S1x1_2_0 : S4x1.Slices ![2, 0] S1x1
  slices_S4x1x32_S1x1x32_3_0_0 : S4x1x32.Slices ![3, 0, 0] S1x1x32
  slices_S4x32_S1x32_3_0 : S4x32.Slices ![3, 0] S1x32
  slices_S4x32x32_S1x32x32_3_0_0 : S4x32x32.Slices ![3, 0, 0] S1x32x32
  slices_S4x32x1_S1x32x1_3_0_0 : S4x32x1.Slices ![3, 0, 0] S1x32x1
  slices_S4x1_S1x1_3_0 : S4x1.Slices ![3, 0] S1x1
  concatenates_S2097152x1_S2097152x1_S2097152x2_d1 : Shape.Concatenates [S2097152x1, S2097152x1] S2097152x2 1
  shapeCasts_S2097152x1_S2097152 : S2097152x1.ShapeCasts S2097152
  dot_S2097152x1_S1x32_S2097152x32_1_0_0_1_n_n_wf : DotDims.WF S2097152x1 S1x32 S2097152x32 [1] [0] [0] [1] [] []
  dot_S2097152x32_S32x32_S2097152x32_1_0_0_1_n_n_wf : DotDims.WF S2097152x32 S32x32 S2097152x32 [1] [0] [0] [1] [] []
  dot_S2097152x32_S32x1_S2097152x1_1_0_0_1_n_n_wf : DotDims.WF S2097152x32 S32x1 S2097152x1 [1] [0] [0] [1] [] []

variable [Facts₀]

def dot_S2097152x1_S1x32_S2097152x32_1_0_0_1_n_n : DotDims S2097152x1 S1x32 S2097152x32 where
  lhsContracting := [1]
  rhsContracting := [0]
  lhsNonContracting := [0]
  rhsNonContracting := [1]
  lhsBatch := []
  rhsBatch := []
  wf := dot_S2097152x1_S1x32_S2097152x32_1_0_0_1_n_n_wf
def dot_S2097152x32_S32x32_S2097152x32_1_0_0_1_n_n : DotDims S2097152x32 S32x32 S2097152x32 where
  lhsContracting := [1]
  rhsContracting := [0]
  lhsNonContracting := [0]
  rhsNonContracting := [1]
  lhsBatch := []
  rhsBatch := []
  wf := dot_S2097152x32_S32x32_S2097152x32_1_0_0_1_n_n_wf
def dot_S2097152x32_S32x1_S2097152x1_1_0_0_1_n_n : DotDims S2097152x32 S32x1 S2097152x1 where
  lhsContracting := [1]
  rhsContracting := [0]
  lhsNonContracting := [0]
  rhsNonContracting := [1]
  lhsBatch := []
  rhsBatch := []
  wf := dot_S2097152x32_S32x1_S2097152x1_1_0_0_1_n_n_wf

class Facts : Prop extends Facts₀ where

variable [Facts]
-- ==== Proof.LibPlainMatmul.lean ====
/-
  A plain matrix product read at one entry, over the extended reals.

  For the dimension numbers of an `M × K` by `K × N` product (`DotDims.plain M K N`: the left operand
  contracted on its second axis, the right one on its first, no batch axis) the entry `(p, q)` of the
  product is `∑ k, lhs (p, k) * rhs (k, q)`: for a kernel's matrix-unit product accumulated into the zero
  splat, and for the host's `dot_general`. The contraction index of such a product has one coordinate, and
  the operands' indices at output `(p, q)` and contraction coordinate `k` are `(p, k)` and `(k, q)`.
-/
import Idealize.ShloMosaic.Lib.ValueIdx
import Idealize.ShloMosaic.PureOps.Ideal.Laws

noncomputable section

open scoped BigOperators

namespace Cert.PlainMatmul

open Idealize.ShloMosaic Idealize.ShloMosaic.ValueIdx

variable {M K N : Nat}

/-- The contraction of a plain product runs over one axis … -/
theorem contr_rank : (DotDims.plain M K N).contr.rank = 1 := rfl

/-- … of extent `K`. -/
theorem contr_size : (DotDims.plain M K N).contr.size ⟨0, Nat.one_pos⟩ = K := rfl

/-- The contraction index whose one coordinate is `k`. -/
abbrev kidx (k : Fin K) : (DotDims.plain M K N).contr.Idx :=
  (contrEquiv1 (DotDims.plain M K N) K contr_rank contr_size).symm k

/-- At output `(p, q)` and contraction coordinate `k` the left operand is read at `(p, k)`. -/
theorem lhsIdx_eq (p : Fin M) (q : Fin N) (k : Fin K) :
    (DotDims.plain M K N).lhsIdx (ix2 p q) (kidx k) = ix2 p k := by
  funext a
  refine Fin.ext ?_
  match a with
  | ⟨0, h0⟩ =>
    unfold DotDims.lhsIdx
    rw [dif_neg (show ¬(⟨0, h0⟩ : Fin (⟨2, ![M, K]⟩ : Shape).rank) ∈ (DotDims.plain M K N).lhsBatch from List.not_mem_nil),
      dif_pos (show (⟨0, h0⟩ : Fin (⟨2, ![M, K]⟩ : Shape).rank) ∈ (DotDims.plain M K N).lhsNonContracting from
        List.mem_singleton.mpr rfl)]
    rfl
  | ⟨1, _⟩ =>
    exact ((DotDims.plain M K N).lhsIdx_val_of_single (cl := 1) rfl (ix2 p q) (kidx k)).trans
      (contrEquiv1_symm_val (DotDims.plain M K N) K contr_rank contr_size k)

/-- At output `(p, q)` and contraction coordinate `k` the right operand is read at `(k, q)`. -/
theorem rhsIdx_eq (p : Fin M) (q : Fin N) (k : Fin K) :
    (DotDims.plain M K N).rhsIdx (ix2 p q) (kidx k) = ix2 k q := by
  funext a
  refine Fin.ext ?_
  match a with
  | ⟨0, _⟩ =>
    exact ((DotDims.plain M K N).rhsIdx_val_of_single (cr := 0) rfl (ix2 p q) (kidx k)).trans
      (contrEquiv1_symm_val (DotDims.plain M K N) K contr_rank contr_size k)
  | ⟨1, h1⟩ =>
    unfold DotDims.rhsIdx
    rw [dif_neg (show ¬(⟨1, h1⟩ : Fin (⟨2, ![K, N]⟩ : Shape).rank) ∈ (DotDims.plain M K N).rhsBatch from List.not_mem_nil),
      dif_pos (show (⟨1, h1⟩ : Fin (⟨2, ![K, N]⟩ : Shape).rank) ∈ (DotDims.plain M K N).rhsNonContracting from
        List.mem_singleton.mpr rfl)]
    rfl

/-- The sum over the contraction index of a plain product is the sum over its one coordinate. -/
theorem sum_contr (f : (⟨2, ![M, K]⟩ : Shape).Idx → (⟨2, ![K, N]⟩ : Shape).Idx → EReal) (p : Fin M) (q : Fin N) :
    ∑ κ : (DotDims.plain M K N).contr.Idx, f ((DotDims.plain M K N).lhsIdx (ix2 p q) κ) ((DotDims.plain M K N).rhsIdx (ix2 p q) κ)
      = ∑ k : Fin K, f (ix2 p k) (ix2 k q) := by
  rw [← Equiv.sum_comp (contrEquiv1 (DotDims.plain M K N) K contr_rank contr_size).symm]
  refine Finset.sum_congr rfl fun k _ => ?_
  rw [lhsIdx_eq p q k, rhsIdx_eq p q k]

/-- A KERNEL'S PRODUCT into the zero accumulator, at entry `(p, q)`: the sum over `k` of `lhs (p, k) * rhs (k, q)`,
    whatever the operands' formats (a change of format is the identity on the extended reals). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    matmul (DotDims.plain M K N) prec lhs rhs (constant (F := Ideal) ⟨2, ![M, N]⟩ .f32 0x00000000#32) (ix2 p q)
      = ∑ k : Fin K, lhs (ix2 p k) * rhs (ix2 k q) := by
  show FloatOps.matmul (DotDims.plain M K N) prec lhs rhs (constant (F := Ideal) ⟨2, ![M, N]⟩ .f32 0x00000000#32) (ix2 p q) = _
  rw [Ideal.matmul_constant_zero_apply]
  exact sum_contr (fun a b => lhs a * rhs b) p q

/-- THE HOST'S `dot_general` with the same dimension numbers, at entry `(p, q)`: the same sum. -/
theorem dotGeneral_apply {φ₁ φ₂ : FTy} (prec : Option ContractPrecision)
    (lhs : FVec Ideal ⟨2, ![M, K]⟩ φ₁) (rhs : FVec Ideal ⟨2, ![K, N]⟩ φ₂) (p : Fin M) (q : Fin N) :
    Host.dotGeneral (DotDims.plain M K N) prec lhs rhs (ix2 p q) = ∑ k : Fin K, lhs (ix2 p k) * rhs (ix2 k q) := by
  show FloatOps.dotGeneral (DotDims.plain M K N) prec .single lhs rhs (ix2 p q) = _
  rw [Ideal.dotGeneral_apply]
  exact sum_contr (fun a b => lhs a * rhs b) p q

end Cert.PlainMatmul

end
-- ==== Proof.KLayers.lean ====
/-
  The feature-major program's layers, read at one lane.

  A chunk of 8192 batch elements lies along the lanes of a `[1, 8192]` row `x`. A weight slab
  `w : [1, 32, 1]` times the row gives the `[32, 8192]` table `w (0, j, 0) · x (0, l)` (a product
  contracted over one term); a bias slab `c : [1, 32, 1]` is added down the lanes and the result
  cut at zero; a `[1, 32, 32]` slab contracts the hidden axis, `∑ j, w (0, k, j) · h (j, l)`; a
  `[1, 1, 32]` slab contracts it to a row again. Lane `l` of every table depends on lane `l` of `x`
  alone, so a whole perceptron, read at lane `l`, is a function of the number `x (0, l)`.
-/
import proofs.«181282_j62749472195096_2_alg».proof.Proof.Gen.KernelIdeal.Skeleton
import proofs.«181282_j62749472195096_2_alg».proof.Proof.LibPlainMatmul
import Idealize.ShloMosaic.Lib.ValueLayout
import Idealize.ShloMosaic.Lib.Pipeline.Value

noncomputable section

open scoped BigOperators

namespace Cert.KLayers

open Cert.KernelIdeal Cert.KernelIdeal.Gen Idealize.ShloMosaic Idealize.ShloMosaic.ValueIdx

/-! ## The layers as terms, at any float instance -/

section Terms

variable {F : FTy → Type} [FloatOps F]

/-- A `[1, 32, 1]` weight slab times a `[1, 8192]` row. -/
def M1 (w : Vec F S1x32x1 .f32) (x : FVec F S1x8192 .f32) : FVec F S32x8192 .f32 :=
  matmul dot_S32x1_S1x8192_S32x8192_1_0_0_1_n_n none (shapeCast S32x1 w shapeCasts_S1x32x1_S32x1) x
    (constant S32x8192 .f32 0x00000000#32)

/-- A `[1, 32, 1]` bias slab added down the lanes, then cut at zero. -/
def A1 (c : Vec F S1x32x1 .f32) (m : FVec F S32x8192 .f32) : FVec F S32x8192 .f32 :=
  maximumf (addf m (broadcastTo S32x8192 (shapeCast S32x1 c shapeCasts_S1x32x1_S32x1) broadcasts_S32x1_S32x8192))
    (broadcast S32x8192 (Scalar.ofBits .f32 0x00000000#32))

/-- The second hidden layer: a `[1, 32, 32]` slab contracts the hidden axis, bias, cut at zero. -/
def L2 (w : Vec F S1x32x32 .f32) (c : Vec F S1x32x1 .f32) (h : FVec F S32x8192 .f32) : FVec F S32x8192 .f32 :=
  A1 c (matmul dot_S32x32_S32x8192_S32x8192_1_0_0_1_n_n none (shapeCast S32x32 w shapeCasts_S1x32x32_S32x32) h
    (constant S32x8192 .f32 0x00000000#32))

/-- The output layer: a `[1, 1, 32]` slab contracts the hidden axis to a row, plus a `[1, 1, 1]` bias. -/
def L3 (w : Vec F S1x1x32 .f32) (c : Vec F S1x1x1 .f32) (h : FVec F S32x8192 .f32) : FVec F S1x8192 .f32 :=
  addf (matmul dot_S1x32_S32x8192_S1x8192_1_0_0_1_n_n none (shapeCast S1x32 w shapeCasts_S1x1x32_S1x32) h
      (constant S1x8192 .f32 0x00000000#32))
    (broadcastTo S1x8192 (shapeCast S1x1 c shapeCasts_S1x1x1_S1x1) broadcasts_S1x1_S1x8192)

/-- A whole perceptron on a row. -/
def net (w1 c1 : Vec F S1x32x1 .f32) (w2 : Vec F S1x32x32 .f32) (c2 : Vec F S1x32x1 .f32) (w3 : Vec F S1x1x32 .f32)
    (c3 : Vec F S1x1x1 .f32) (x : FVec F S1x8192 .f32) : FVec F S1x8192 .f32 :=
  L3 w3 c3 (L2 w2 c2 (A1 c1 (M1 w1 x)))

/-! The printed values over these terms. -/

theorem pay3_eq (v4 : Vec F S1x8192 .f32) : k0_pay3 v4 = v4 := shapeCast_self v4 _
theorem pay4_eq (v7 : Vec F S1x8192 .f32) : k0_pay4 v7 = v7 := shapeCast_self v7 _

theorem pay5_eq (v4 : Vec F S1x8192 .f32) (v9 v12 : Vec F S1x32x1 .f32) (v18 : Vec F S1x32x32 .f32) (v21 : Vec F S1x32x1 .f32)
    (v27 : Vec F S1x1x32 .f32) (v30 : Vec F S1x1x1 .f32) :
    k0_pay5 v4 v9 v12 v18 v21 v27 v30 = net v9 v12 v18 v21 v27 v30 (k0_pay3 v4) := rfl

theorem pay6_eq (v5 v8 v33 : FVec F S1x8192 .f32) (v36 v39 : Vec F S1x32x1 .f32) (v45 : Vec F S1x32x32 .f32) (v48 : Vec F S1x32x1 .f32)
    (v54 : Vec F S1x1x32 .f32) (v57 : Vec F S1x1x1 .f32) :
    k0_pay6 v5 v8 v33 v36 v39 v45 v48 v54 v57 = addf (mulf v8 (exp v33)) (net v36 v39 v45 v48 v54 v57 v5) := rfl

theorem pay7_eq (v5 v8 v33 : FVec F S1x8192 .f32) (v36 v39 : Vec F S1x32x1 .f32) (v45 : Vec F S1x32x32 .f32) (v48 : Vec F S1x32x1 .f32)
    (v54 : Vec F S1x1x32 .f32) (v57 : Vec F S1x1x1 .f32) (v62 : Vec F S1x32x1 .f32) :
    k0_pay7 v5 v8 v33 v36 v39 v45 v48 v54 v57 v62 = M1 v62 (k0_pay6 v5 v8 v33 v36 v39 v45 v48 v54 v57) := rfl

theorem pay8_eq (v64 : FVec F S32x8192 .f32) (v65 : Vec F S1x32x1 .f32) (v71 : Vec F S1x32x32 .f32) (v74 : Vec F S1x32x1 .f32)
    (v80 : Vec F S1x1x32 .f32) (v83 : Vec F S1x1x1 .f32) :
    k0_pay8 v64 v65 v71 v74 v80 v83 = L3 v80 v83 (L2 v71 v74 (A1 v65 v64)) := rfl

theorem pay9_eq (v5 : FVec F S1x8192 .f32) (v64 : FVec F S32x8192 .f32) (v65 : Vec F S1x32x1 .f32) (v71 : Vec F S1x32x32 .f32)
    (v74 : Vec F S1x32x1 .f32) (v80 : Vec F S1x1x32 .f32) (v83 : Vec F S1x1x1 .f32) :
    k0_pay9 v5 v64 v65 v71 v74 v80 v83 = mulf v5 (exp (k0_pay8 v64 v65 v71 v74 v80 v83)) := rfl

theorem pay10_eq (v61 : FVec F S1x8192 .f32) (v89 v92 : Vec F S1x32x1 .f32) : k0_pay10 v61 v89 v92 = A1 v92 (M1 v89 v61) := rfl

theorem pay1_eq (v88 : FVec F S1x8192 .f32) (v97 : FVec F S32x8192 .f32) (v98 : Vec F S1x32x32 .f32) (v101 : Vec F S1x32x1 .f32)
    (v107 : Vec F S1x1x32 .f32) (v110 : Vec F S1x1x1 .f32) :
    k0_pay1 v88 v97 v98 v101 v107 v110 = addf v88 (L3 v107 v110 (L2 v98 v101 v97)) := rfl

theorem pay2_eq (v33 v86 : FVec F S1x8192 .f32) : k0_pay2 v33 v86 = addf v33 v86 := rfl

end Terms

/-! ## The layers at one lane, over the extended reals -/

/-- A column `[a, 1]` broadcast along the lanes of `[a, b]` reads, at `(i, j)`, the column at `(i, 0)`. -/
theorem bcol_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

theorem M1_apply (w : Vec Ideal S1x32x1 .f32) (x : FVec Ideal S1x8192 .f32) (j : Fin 32) (l : Fin 8192) :
    M1 w x (ix2 j l) = w (ix3 (0 : Fin 1) j (0 : Fin 1)) * x (ix2 (0 : Fin 1) l) := by
  unfold M1
  refine (Cert.PlainMatmul.matmul_zero_apply (M := 32) (K := 1) (N := 8192) none _ x j l).trans ?_
  rw [Fin.sum_univ_one, shapeCast_1ab_ab_apply]

theorem A1_apply (c : Vec Ideal S1x32x1 .f32) (m : FVec Ideal S32x8192 .f32) (j : Fin 32) (l : Fin 8192) :
    A1 c m (ix2 j l) = max (m (ix2 j l) + c (ix3 (0 : Fin 1) j (0 : Fin 1))) 0 := by
  unfold A1
  show max (m (ix2 j l) + broadcastTo S32x8192 (shapeCast S32x1 c shapeCasts_S1x32x1_S32x1) broadcasts_S32x1_S32x8192 (ix2 j l))
    (Ideal.ofBits .f32 0x00000000#32) = _
  rw [bcol_apply, shapeCast_1ab_ab_apply, Ideal.ofBits_zero_f32]

theorem L2_apply (w : Vec Ideal S1x32x32 .f32) (c : Vec Ideal S1x32x1 .f32) (h : FVec Ideal S32x8192 .f32) (k : Fin 32) (l : Fin 8192) :
    L2 w c h (ix2 k l) = max ((∑ j : Fin 32, w (ix3 (0 : Fin 1) k j) * h (ix2 j l)) + c (ix3 (0 : Fin 1) k (0 : Fin 1))) 0 := by
  unfold L2
  rw [A1_apply]
  refine congrArg (fun s => max (s + c (ix3 (0 : Fin 1) k (0 : Fin 1))) 0) ?_
  refine (Cert.PlainMatmul.matmul_zero_apply (M := 32) (K := 32) (N := 8192) none _ h k l).trans ?_
  refine Finset.sum_congr rfl fun j _ => ?_
  rw [shapeCast_1ab_ab_apply]

theorem L3_apply (w : Vec Ideal S1x1x32 .f32) (c : Vec Ideal S1x1x1 .f32) (h : FVec Ideal S32x8192 .f32) (l : Fin 8192) :
    L3 w c h (ix2 (0 : Fin 1) l)
      = (∑ k : Fin 32, w (ix3 (0 : Fin 1) (0 : Fin 1) k) * h (ix2 k l)) + c (ix3 (0 : Fin 1) (0 : Fin 1) (0 : Fin 1)) := by
  unfold L3
  show matmul dot_S1x32_S32x8192_S1x8192_1_0_0_1_n_n none (shapeCast S1x32 w shapeCasts_S1x1x32_S1x32) h
        (constant (F := Ideal) S1x8192 .f32 0x00000000#32) (ix2 (0 : Fin 1) l)
      + broadcastTo S1x8192 (shapeCast S1x1 c shapeCasts_S1x1x1_S1x1) broadcasts_S1x1_S1x8192 (ix2 (0 : Fin 1) l) = _
  rw [bcol_apply, shapeCast_1ab_ab_apply]
  refine congrArg (fun s => s + c (ix3 (0 : Fin 1) (0 : Fin 1) (0 : Fin 1))) ?_
  refine (Cert.PlainMatmul.matmul_zero_apply (M := 1) (K := 32) (N := 8192) none _ h (0 : Fin 1) l).trans ?_
  refine Finset.sum_congr rfl fun k _ => ?_
  rw [shapeCast_1ab_ab_apply]

/-- A whole perceptron at lane `l`: a function of the number `x (0, l)` and the six slabs. -/
theorem net_apply (w1 c1 : Vec Ideal S1x32x1 .f32) (w2 : Vec Ideal S1x32x32 .f32) (c2 : Vec Ideal S1x32x1 .f32)
    (w3 : Vec Ideal S1x1x32 .f32) (c3 : Vec Ideal S1x1x1 .f32) (x : FVec Ideal S1x8192 .f32) (l : Fin 8192) :
    net w1 c1 w2 c2 w3 c3 x (ix2 (0 : Fin 1) l)
      = (∑ k : Fin 32, w3 (ix3 (0 : Fin 1) (0 : Fin 1) k) *
          max ((∑ j : Fin 32, w2 (ix3 (0 : Fin 1) k j) *
              max (w1 (ix3 (0 : Fin 1) j (0 : Fin 1)) * x (ix2 (0 : Fin 1) l) + c1 (ix3 (0 : Fin 1) j (0 : Fin 1))) 0)
            + c2 (ix3 (0 : Fin 1) k (0 : Fin 1))) 0)
        + c3 (ix3 (0 : Fin 1) (0 : Fin 1) (0 : Fin 1)) := by
  unfold net
  rw [L3_apply]
  refine congrArg (fun s => s + c3 (ix3 (0 : Fin 1) (0 : Fin 1) (0 : Fin 1))) (Finset.sum_congr rfl fun k _ => ?_)
  rw [L2_apply]
  refine congrArg (fun s => w3 (ix3 (0 : Fin 1) (0 : Fin 1) k) * max (s + c2 (ix3 (0 : Fin 1) k (0 : Fin 1))) 0)
    (Finset.sum_congr rfl fun j _ => ?_)
  rw [A1_apply, M1_apply]

end Cert.KLayers

end
-- ==== Proof.Flow.lean ====
/-
  The coupling flow both programs compute, as one function of the argument arrays, row by row.

  Each row `n` of `z` is a pair `(a, b) = (z n 0, z n 1)`. Four small perceptrons `mlp i`
  (one number in, 32 hidden units, relu, 32 hidden units, relu, one number out) are chained:

      l₁ = mlp 0 a          b' = b · exp l₁ + mlp 1 a
      l₂ = mlp 2 b'         a' = a · exp l₂ + mlp 3 b'

  and the results are the pairs `(a', b')` and the numbers `l₁ + l₂`.

  One program multiplies each input by its weight (`x · w`), the other, working on the transposed
  data, each weight by its input (`w · x`). On the extended reals multiplication is commutative with
  no side condition, so the two perceptrons are one function (`mlpT_eq`); nothing here needs the
  inputs to be finite.
-/
import Idealize.ShloMosaic.Lib.ValueIdx
import Idealize.ShloMosaic.PureOps.Ideal.Laws

noncomputable section

open scoped BigOperators

namespace Cert.Flow

open Idealize.ShloMosaic Idealize.ShloMosaic.ValueIdx

/-- The six weight arrays, each an extended-real valued function of its index:
    `W1 : [4, 1, 32]`, `b1 : [4, 32]`, `W2 : [4, 32, 32]`, `b2 : [4, 32]`, `W3 : [4, 32, 1]`, `b3 : [4, 1]`. -/
structure Params where
  W1 : (⟨3, ![4, 1, 32]⟩ : Shape).Idx → EReal
  b1 : (⟨2, ![4, 32]⟩ : Shape).Idx → EReal
  W2 : (⟨3, ![4, 32, 32]⟩ : Shape).Idx → EReal
  b2 : (⟨2, ![4, 32]⟩ : Shape).Idx → EReal
  W3 : (⟨3, ![4, 32, 1]⟩ : Shape).Idx → EReal
  b3 : (⟨2, ![4, 1]⟩ : Shape).Idx → EReal

/-- The first hidden layer of perceptron `i` at the number `x`, unit `j`: `relu (x · W1 i 0 j + b1 i j)`. -/
def hid1 (P : Params) (i : Fin 4) (x : EReal) (j : Fin 32) : EReal :=
  max (x * P.W1 (ix3 i 0 j) + P.b1 (ix2 i j)) 0

/-- The second hidden layer, unit `k`: `relu (∑ j, hid1 j · W2 i j k + b2 i k)`. -/
def hid2 (P : Params) (i : Fin 4) (x : EReal) (k : Fin 32) : EReal :=
  max ((∑ j : Fin 32, hid1 P i x j * P.W2 (ix3 i j k)) + P.b2 (ix2 i k)) 0

/-- Perceptron `i` at `x`: `∑ k, hid2 k · W3 i k 0 + b3 i 0`. -/
def mlp (P : Params) (i : Fin 4) (x : EReal) : EReal :=
  (∑ k : Fin 32, hid2 P i x k * P.W3 (ix3 i k 0)) + P.b3 (ix2 i 0)

/-- The same three layers with every product written weight first. -/
def hid1T (P : Params) (i : Fin 4) (x : EReal) (j : Fin 32) : EReal :=
  max (P.W1 (ix3 i 0 j) * x + P.b1 (ix2 i j)) 0

def hid2T (P : Params) (i : Fin 4) (x : EReal) (k : Fin 32) : EReal :=
  max ((∑ j : Fin 32, P.W2 (ix3 i j k) * hid1T P i x j) + P.b2 (ix2 i k)) 0

def mlpT (P : Params) (i : Fin 4) (x : EReal) : EReal :=
  (∑ k : Fin 32, P.W3 (ix3 i k 0) * hid2T P i x k) + P.b3 (ix2 i 0)

theorem hid1T_eq (P : Params) (i : Fin 4) (x : EReal) (j : Fin 32) : hid1T P i x j = hid1 P i x j := by
  unfold hid1T hid1; rw [mul_comm]

theorem hid2T_eq (P : Params) (i : Fin 4) (x : EReal) (k : Fin 32) : hid2T P i x k = hid2 P i x k := by
  unfold hid2T hid2
  refine congrArg (fun s => max (s + P.b2 (ix2 i k)) 0) (Finset.sum_congr rfl fun j _ => ?_)
  rw [hid1T_eq, mul_comm]

/-- Multiplication on the extended reals is commutative: the weight-first perceptron is the perceptron. -/
theorem mlpT_eq (P : Params) (i : Fin 4) (x : EReal) : mlpT P i x = mlp P i x := by
  unfold mlpT mlp
  refine congrArg (fun s => s + P.b3 (ix2 i 0)) (Finset.sum_congr rfl fun k _ => ?_)
  rw [hid2T_eq, mul_comm]

/-! ## One row -/

/-- `b' = b · exp (mlp 0 a) + mlp 1 a`. -/
def newB (P : Params) (a b : EReal) : EReal := b * Ideal.exp (mlp P 0 a) + mlp P 1 a

/-- `a' = a · exp (mlp 2 b') + mlp 3 b'`. -/
def newA (P : Params) (a b : EReal) : EReal := a * Ideal.exp (mlp P 2 (newB P a b)) + mlp P 3 (newB P a b)

/-- `l₁ + l₂ = mlp 0 a + mlp 2 b'`. -/
def logDetRow (P : Params) (a b : EReal) : EReal := mlp P 0 a + mlp P 2 (newB P a b)

/-! ## The two results, as arrays -/

/-- The first result, `[2097152, 2]`: row `n` is `(a', b')` of row `n` of `z`. -/
def zOut (P : Params) (z : (⟨2, ![2097152, 2]⟩ : Shape).Idx → EReal) : (⟨2, ![2097152, 2]⟩ : Shape).Idx → EReal :=
  fun i => if (i 1).val = 0 then newA P (z (ix2 (i 0) 0)) (z (ix2 (i 0) 1)) else newB P (z (ix2 (i 0) 0)) (z (ix2 (i 0) 1))

/-- The second result, `[2097152]`: entry `n` is `l₁ + l₂` of row `n` of `z`. -/
def logDet (P : Params) (z : (⟨2, ![2097152, 2]⟩ : Shape).Idx → EReal) : (⟨1, ![2097152]⟩ : Shape).Idx → EReal :=
  fun i => logDetRow P (z (ix2 (i 0) 0)) (z (ix2 (i 0) 1))

end Cert.Flow

end
-- ==== Proof.FlowStaged.lean ====
/-
  The same flow, written over the weight arrays as the feature-major program is handed them.

  That program does not see `W1 : [4, 1, 32]`, `W2 : [4, 32, 32]`, `W3 : [4, 32, 1]` and the biases
  `[4, 32]`, `[4, 1]` but their transposes and columns: `w1 (i, j, 0) = W1 (i, 0, j)`,
  `w2 (i, k, j) = W2 (i, j, k)`, `w3 (i, 0, k) = W3 (i, k, 0)`, `c1 (i, j, 0) = b1 (i, j)`,
  `c2 (i, k, 0) = b2 (i, k)`, `c3 (i, 0, 0) = b3 (i, 0)`. Over those, with every product written
  weight first, perceptron `i` is `tmlp`; at the arrays above it is the perceptron of the flow.
-/
import proofs.«181282_j62749472195096_2_alg».proof.Proof.Flow

noncomputable section

open scoped BigOperators

namespace Cert.Flow

open Idealize.ShloMosaic Idealize.ShloMosaic.ValueIdx

/-- The six weight arrays in the feature-major layout. -/
structure Staged where
  w1 : (⟨3, ![4, 32, 1]⟩ : Shape).Idx → EReal
  c1 : (⟨3, ![4, 32, 1]⟩ : Shape).Idx → EReal
  w2 : (⟨3, ![4, 32, 32]⟩ : Shape).Idx → EReal
  c2 : (⟨3, ![4, 32, 1]⟩ : Shape).Idx → EReal
  w3 : (⟨3, ![4, 1, 32]⟩ : Shape).Idx → EReal
  c3 : (⟨3, ![4, 1, 1]⟩ : Shape).Idx → EReal

/-- The feature-major layout of given weights. -/
def Staged.ofParams (P : Params) : Staged where
  w1 := fun i => P.W1 (ix3 (i 0) 0 (i 1))
  c1 := fun i => P.b1 (ix2 (i 0) (i 1))
  w2 := fun i => P.W2 (ix3 (i 0) (i 2) (i 1))
  c2 := fun i => P.b2 (ix2 (i 0) (i 1))
  w3 := fun i => P.W3 (ix3 (i 0) (i 2) 0)
  c3 := fun i => P.b3 (ix2 (i 0) 0)

/-- Perceptron `i` over the feature-major arrays, every product weight first. -/
def tmlp (S : Staged) (i : Fin 4) (x : EReal) : EReal :=
  (∑ k : Fin 32, S.w3 (ix3 i 0 k) *
      max ((∑ j : Fin 32, S.w2 (ix3 i k j) * max (S.w1 (ix3 i j 0) * x + S.c1 (ix3 i j 0)) 0) + S.c2 (ix3 i k 0)) 0)
    + S.c3 (ix3 i 0 0)

/-- At the feature-major layout of `P` it is the perceptron of the flow. -/
theorem tmlp_ofParams (P : Params) (i : Fin 4) (x : EReal) : tmlp (Staged.ofParams P) i x = mlp P i x :=
  (show tmlp (Staged.ofParams P) i x = mlpT P i x from rfl).trans (mlpT_eq P i x)

/-- One row over the feature-major arrays. -/
def tNewB (S : Staged) (a b : EReal) : EReal := b * Ideal.exp (tmlp S 0 a) + tmlp S 1 a
def tNewA (S : Staged) (a b : EReal) : EReal := a * Ideal.exp (tmlp S 2 (tNewB S a b)) + tmlp S 3 (tNewB S a b)
def tLogDetRow (S : Staged) (a b : EReal) : EReal := tmlp S 0 a + tmlp S 2 (tNewB S a b)

theorem tNewB_ofParams (P : Params) (a b : EReal) : tNewB (Staged.ofParams P) a b = newB P a b := by
  unfold tNewB newB; rw [tmlp_ofParams, tmlp_ofParams]

theorem tNewA_ofParams (P : Params) (a b : EReal) : tNewA (Staged.ofParams P) a b = newA P a b := by
  unfold tNewA newA; rw [tNewB_ofParams, tmlp_ofParams, tmlp_ofParams]

theorem tLogDetRow_ofParams (P : Params) (a b : EReal) : tLogDetRow (Staged.ofParams P) a b = logDetRow P a b := by
  unfold tLogDetRow logDetRow; rw [tNewB_ofParams, tmlp_ofParams, tmlp_ofParams]

end Cert.Flow

end
-- ==== Proof.KTrip.lean ====
/-
  One trip of the chunk loop, read at one lane.

  Trip `k` of the loop works on lanes `8192·k … 8192·k + 8191` of the block: it loads the two rows
  of the input block there, `a` and `b`, and the four perceptrons' weight slabs, and computes, lane
  by lane, `l₁ = mlp 0 a`, `b' = b · exp l₁ + mlp 1 a`, `l₂ = mlp 2 b'`, `a' = a · exp l₂ + mlp 3 b'`.
  Every intermediate row or table of the trip, read at lane `l`, is the corresponding number of the
  flow at `a = x0 (0, 8192·k + l)`, `b = x0 (1, 8192·k + l)`, over the staged weight blocks.
-/
import proofs.«181282_j62749472195096_2_alg».proof.Proof.Gen.KernelIdeal.Loops
import proofs.«181282_j62749472195096_2_alg».proof.Proof.KLayers
import proofs.«181282_j62749472195096_2_alg».proof.Proof.FlowStaged
import Idealize.ShloMosaic.Lib.WholeRead

noncomputable section

open scoped BigOperators

namespace Cert.KTrip

open Cert.KernelIdeal Cert.KernelIdeal.Gen Cert.KLayers Cert.Flow Idealize.ShloMosaic Idealize.ShloMosaic.ValueIdx

/-- The lane of the block that lane `l` of trip `k` is. -/
def col (k : Fin k0_t1_loop.trips) (l : Fin 8192) : Fin 131072 :=
  ⟨8192 * k.val + l.val, by have := k.isLt; have := k0_t1_abs.2.1; have := l.isLt; omega⟩

/-- The six staged weight blocks as the flow's feature-major weights. -/
def stg (x1 x2 : Vec Ideal S4x32x1 .f32) (x3 : Vec Ideal S4x32x32 .f32) (x4 : Vec Ideal S4x32x1 .f32) (x5 : Vec Ideal S4x1x32 .f32)
    (x6 : Vec Ideal S4x1x1 .f32) : Staged := ⟨x1, x2, x3, x4, x5, x6⟩

/-! ## Where the trip's loads land -/

theorem row0_idx (k : Fin k0_t1_loop.trips) (l : Fin 8192) :
    (Rect.unit (s := S2x131072) (k0_off1 k) S1x8192.size (k0_off1_inb k)).toLoadRect.idx (ix2 (0 : Fin 1) l) = ix2 (0 : Fin 2) (col k l) := by
  funext a
  refine Fin.ext ?_
  match a with
  | ⟨0, _⟩ => show k0_off1 k 0 + 1 * 0 = 0; rw [k0_off1_eq]; rfl
  | ⟨1, _⟩ => show k0_off1 k 1 + 1 * l.val = 8192 * k.val + l.val; rw [k0_off1_eq]; simp

theorem row1_idx (k : Fin k0_t1_loop.trips) (l : Fin 8192) :
    (Rect.unit (s := S2x131072) (k0_off2 k) S1x8192.size (k0_off2_inb k)).toLoadRect.idx (ix2 (0 : Fin 1) l) = ix2 (1 : Fin 2) (col k l) := by
  funext a
  refine Fin.ext ?_
  match a with
  | ⟨0, _⟩ => show k0_off2 k 0 + 1 * 0 = 1; rw [k0_off2_eq]; rfl
  | ⟨1, _⟩ => show k0_off2 k 1 + 1 * l.val = 8192 * k.val + l.val; rw [k0_off2_eq]; simp

/-- Slab `o` of a `[4, 32, 1]` block at `(0, j, 0)` is the block at `(o, j, 0)`. -/
theorem slab321_idx (o : ℕ) (ho : o < 4) (inb : ∀ a, (![o, 0, 0] : Fin 3 → ℕ) a + S1x32x1.size a ≤ S4x32x1.size a) (j : Fin 32) :
    (Rect.unit (s := S4x32x1) ![o, 0, 0] S1x32x1.size inb).toLoadRect.idx (ix3 (0 : Fin 1) j (0 : Fin 1)) = ix3 (⟨o, ho⟩ : Fin 4) j (0 : Fin 1) := by
  funext a
  refine Fin.ext ?_
  match a with
  | ⟨0, _⟩ => show o + 1 * 0 = o; omega
  | ⟨1, _⟩ => show 0 + 1 * j.val = j.val; omega
  | ⟨2, _⟩ => rfl

theorem slab3232_idx (o : ℕ) (ho : o < 4) (inb : ∀ a, (![o, 0, 0] : Fin 3 → ℕ) a + S1x32x32.size a ≤ S4x32x32.size a) (k j : Fin 32) :
    (Rect.unit (s := S4x32x32) ![o, 0, 0] S1x32x32.size inb).toLoadRect.idx (ix3 (0 : Fin 1) k j) = ix3 (⟨o, ho⟩ : Fin 4) k j := by
  funext a
  refine Fin.ext ?_
  match a with
  | ⟨0, _⟩ => show o + 1 * 0 = o; omega
  | ⟨1, _⟩ => show 0 + 1 * k.val = k.val; omega
  | ⟨2, _⟩ => show 0 + 1 * j.val = j.val; omega

theorem slab132_idx (o : ℕ) (ho : o < 4) (inb : ∀ a, (![o, 0, 0] : Fin 3 → ℕ) a + S1x1x32.size a ≤ S4x1x32.size a) (k : Fin 32) :
    (Rect.unit (s := S4x1x32) ![o, 0, 0] S1x1x32.size inb).toLoadRect.idx (ix3 (0 : Fin 1) (0 : Fin 1) k) = ix3 (⟨o, ho⟩ : Fin 4) (0 : Fin 1) k := by
  funext a
  refine Fin.ext ?_
  match a with
  | ⟨0, _⟩ => show o + 1 * 0 = o; omega
  | ⟨1, _⟩ => rfl
  | ⟨2, _⟩ => show 0 + 1 * k.val = k.val; omega

theorem slab111_idx (o : ℕ) (ho : o < 4) (inb : ∀ a, (![o, 0, 0] : Fin 3 → ℕ) a + S1x1x1.size a ≤ S4x1x1.size a) :
    (Rect.unit (s := S4x1x1) ![o, 0, 0] S1x1x1.size inb).toLoadRect.idx (ix3 (0 : Fin 1) (0 : Fin 1) (0 : Fin 1)) = ix3 (⟨o, ho⟩ : Fin 4) (0 : Fin 1) (0 : Fin 1) := by
  funext a
  refine Fin.ext ?_
  match a with
  | ⟨0, _⟩ => show o + 1 * 0 = o; omega
  | ⟨1, _⟩ => rfl
  | ⟨2, _⟩ => rfl

/-! ## A perceptron on a row whose slabs are slab `o` of the staged blocks -/

section Net

variable (arg2 : Memref sig .tc .vmem S4x32x1 .f32) (harg2 : arg2.IsWhole) (arg3 : Memref sig .tc .vmem S4x32x1 .f32) (harg3 : arg3.IsWhole)
  (arg4 : Memref sig .tc .vmem S4x32x32 .f32) (harg4 : arg4.IsWhole) (arg5 : Memref sig .tc .vmem S4x32x1 .f32) (harg5 : arg5.IsWhole)
  (arg6 : Memref sig .tc .vmem S4x1x32 .f32) (harg6 : arg6.IsWhole) (arg7 : Memref sig .tc .vmem S4x1x1 .f32) (harg7 : arg7.IsWhole)
  (x1 x2 : Vec Ideal S4x32x1 .f32) (x3 : Vec Ideal S4x32x32 .f32) (x4 : Vec Ideal S4x32x1 .f32) (x5 : Vec Ideal S4x1x32 .f32) (x6 : Vec Ideal S4x1x1 .f32)

/-- The first layer with slab `o`'s weights and biases, at hidden unit `j` and lane `l`. -/
theorem hidden1_slab (o : ℕ) (ho : o < 4) (i2 i3) (x : FVec Ideal S1x8192 .f32) (j : Fin 32) (l : Fin 8192) :
    A1 (View.readAt (Elt Ideal) arg3.view (Rect.unit (s := S4x32x1) ![o, 0, 0] S1x32x1.size i3).toLoadRect (harg3.unread x2))
        (M1 (View.readAt (Elt Ideal) arg2.view (Rect.unit (s := S4x32x1) ![o, 0, 0] S1x32x1.size i2).toLoadRect (harg2.unread x1)) x) (ix2 j l)
      = max (x1 (ix3 (⟨o, ho⟩ : Fin 4) j (0 : Fin 1)) * x (ix2 (0 : Fin 1) l) + x2 (ix3 (⟨o, ho⟩ : Fin 4) j (0 : Fin 1))) 0 := by
  rw [A1_apply, M1_apply, harg2.readAt_unread, harg3.readAt_unread, slab321_idx o ho]

/-- The two upper layers with slab `o`'s weights, on a table `h` of first-layer values, at lane `l`. -/
theorem upper_slab (o : ℕ) (ho : o < 4) (i4 i5 i6 i7) (h : FVec Ideal S32x8192 .f32) (g : Fin 32 → EReal) (l : Fin 8192)
    (hg : ∀ j, h (ix2 j l) = g j) :
    L3 (View.readAt (Elt Ideal) arg6.view (Rect.unit (s := S4x1x32) ![o, 0, 0] S1x1x32.size i6).toLoadRect (harg6.unread x5))
        (View.readAt (Elt Ideal) arg7.view (Rect.unit (s := S4x1x1) ![o, 0, 0] S1x1x1.size i7).toLoadRect (harg7.unread x6))
        (L2 (View.readAt (Elt Ideal) arg4.view (Rect.unit (s := S4x32x32) ![o, 0, 0] S1x32x32.size i4).toLoadRect (harg4.unread x3))
          (View.readAt (Elt Ideal) arg5.view (Rect.unit (s := S4x32x1) ![o, 0, 0] S1x32x1.size i5).toLoadRect (harg5.unread x4)) h) (ix2 (0 : Fin 1) l)
      = (∑ k : Fin 32, x5 (ix3 (⟨o, ho⟩ : Fin 4) (0 : Fin 1) k) *
            max ((∑ j : Fin 32, x3 (ix3 (⟨o, ho⟩ : Fin 4) k j) * g j) + x4 (ix3 (⟨o, ho⟩ : Fin 4) k (0 : Fin 1))) 0)
          + x6 (ix3 (⟨o, ho⟩ : Fin 4) (0 : Fin 1) (0 : Fin 1)) := by
  rw [L3_apply, harg7.readAt_unread, slab111_idx o ho]
  refine congrArg (fun s => s + x6 (ix3 (⟨o, ho⟩ : Fin 4) (0 : Fin 1) (0 : Fin 1))) (Finset.sum_congr rfl fun k _ => ?_)
  rw [L2_apply, harg6.readAt_unread, slab132_idx o ho, harg5.readAt_unread, slab321_idx o ho]
  refine congrArg (fun s => x5 (ix3 (⟨o, ho⟩ : Fin 4) (0 : Fin 1) k) * max (s + x4 (ix3 (⟨o, ho⟩ : Fin 4) k (0 : Fin 1))) 0)
    (Finset.sum_congr rfl fun j _ => ?_)
  rw [harg4.readAt_unread, slab3232_idx o ho, hg j]

/-- A whole perceptron with slab `o`'s weights on a row `x`, at lane `l`: perceptron `o` of the flow at `x (0, l)`. -/
theorem net_slab (o : ℕ) (ho : o < 4) (i2 i3 i4 i5 i6 i7) (x : FVec Ideal S1x8192 .f32) (l : Fin 8192) :
    net (View.readAt (Elt Ideal) arg2.view (Rect.unit (s := S4x32x1) ![o, 0, 0] S1x32x1.size i2).toLoadRect (harg2.unread x1))
        (View.readAt (Elt Ideal) arg3.view (Rect.unit (s := S4x32x1) ![o, 0, 0] S1x32x1.size i3).toLoadRect (harg3.unread x2))
        (View.readAt (Elt Ideal) arg4.view (Rect.unit (s := S4x32x32) ![o, 0, 0] S1x32x32.size i4).toLoadRect (harg4.unread x3))
        (View.readAt (Elt Ideal) arg5.view (Rect.unit (s := S4x32x1) ![o, 0, 0] S1x32x1.size i5).toLoadRect (harg5.unread x4))
        (View.readAt (Elt Ideal) arg6.view (Rect.unit (s := S4x1x32) ![o, 0, 0] S1x1x32.size i6).toLoadRect (harg6.unread x5))
        (View.readAt (Elt Ideal) arg7.view (Rect.unit (s := S4x1x1) ![o, 0, 0] S1x1x1.size i7).toLoadRect (harg7.unread x6)) x (ix2 (0 : Fin 1) l)
      = tmlp (stg x1 x2 x3 x4 x5 x6) (⟨o, ho⟩ : Fin 4) (x (ix2 (0 : Fin 1) l)) := by
  unfold net
  exact upper_slab arg4 harg4 arg5 harg5 arg6 harg6 arg7 harg7 x3 x4 x5 x6 o ho i4 i5 i6 i7 _ _ l
    (fun j => hidden1_slab arg2 harg2 arg3 harg3 x1 x2 o ho i2 i3 x j l)

end Net

/-! ## The trip's rows and tables at lane `l` -/

section Trip

variable (arg1 : Memref sig .tc .vmem S2x131072 .f32) (harg1 : arg1.IsWhole)
  (arg2 : Memref sig .tc .vmem S4x32x1 .f32) (harg2 : arg2.IsWhole) (arg3 : Memref sig .tc .vmem S4x32x1 .f32) (harg3 : arg3.IsWhole)
  (arg4 : Memref sig .tc .vmem S4x32x32 .f32) (harg4 : arg4.IsWhole) (arg5 : Memref sig .tc .vmem S4x32x1 .f32) (harg5 : arg5.IsWhole)
  (arg6 : Memref sig .tc .vmem S4x1x32 .f32) (harg6 : arg6.IsWhole) (arg7 : Memref sig .tc .vmem S4x1x1 .f32) (harg7 : arg7.IsWhole)
  (x0 : Vec Ideal S2x131072 .f32)
  (x1 x2 : Vec Ideal S4x32x1 .f32) (x3 : Vec Ideal S4x32x32 .f32) (x4 : Vec Ideal S4x32x1 .f32) (x5 : Vec Ideal S4x1x32 .f32) (x6 : Vec Ideal S4x1x1 .f32)
  (k : Fin k0_t1_loop.trips) (l : Fin 8192)

/-- Row 0 of the chunk: `a`. -/
theorem a_lane : trip_k0_t1.sl.r arg1 (harg1.unread x0) k (ix2 (0 : Fin 1) l) = x0 (ix2 (0 : Fin 2) (col k l)) := by
  unfold trip_k0_t1.sl.r
  rw [pay3_eq, harg1.readAt_unread, row0_idx]

/-- Row 1 of the chunk: `b`. -/
theorem b_lane : trip_k0_t1.sl.r_1 arg1 (harg1.unread x0) k (ix2 (0 : Fin 1) l) = x0 (ix2 (1 : Fin 2) (col k l)) := by
  unfold trip_k0_t1.sl.r_1
  rw [pay4_eq, harg1.readAt_unread, row1_idx]

/-- `l₁ = mlp 0 a`. -/
theorem l1_lane : trip_k0_t1.sl.r_2 arg1 arg2 arg3 arg4 arg5 arg6 arg7 (harg1.unread x0) (harg2.unread x1) (harg3.unread x2) (harg4.unread x3) (harg5.unread x4) (harg6.unread x5) (harg7.unread x6) k (ix2 (0 : Fin 1) l)
      = tmlp (stg x1 x2 x3 x4 x5 x6) 0 (x0 (ix2 (0 : Fin 2) (col k l))) := by
  unfold trip_k0_t1.sl.r_2
  rw [pay5_eq]
  refine (net_slab arg2 harg2 arg3 harg3 arg4 harg4 arg5 harg5 arg6 harg6 arg7 harg7 x1 x2 x3 x4 x5 x6 0 (by decide) _ _ _ _ _ _ _ l).trans ?_
  rw [pay3_eq, harg1.readAt_unread, row0_idx]
  rfl

/-- `b' = b · exp l₁ + mlp 1 a`. -/
theorem newB_lane : trip_k0_t1.sl.r_3 arg1 arg2 arg3 arg4 arg5 arg6 arg7 (harg1.unread x0) (harg2.unread x1) (harg3.unread x2) (harg4.unread x3) (harg5.unread x4) (harg6.unread x5) (harg7.unread x6) k (ix2 (0 : Fin 1) l)
      = tNewB (stg x1 x2 x3 x4 x5 x6) (x0 (ix2 (0 : Fin 2) (col k l))) (x0 (ix2 (1 : Fin 2) (col k l))) := by
  unfold trip_k0_t1.sl.r_3
  rw [pay6_eq]
  show trip_k0_t1.sl.r_1 arg1 (harg1.unread x0) k (ix2 (0 : Fin 1) l)
        * Ideal.exp (trip_k0_t1.sl.r_2 arg1 arg2 arg3 arg4 arg5 arg6 arg7 (harg1.unread x0) (harg2.unread x1) (harg3.unread x2) (harg4.unread x3) (harg5.unread x4) (harg6.unread x5) (harg7.unread x6) k (ix2 (0 : Fin 1) l))
      + net _ _ _ _ _ _ (trip_k0_t1.sl.r arg1 (harg1.unread x0) k) (ix2 (0 : Fin 1) l) = _
  rw [b_lane, l1_lane,
    net_slab arg2 harg2 arg3 harg3 arg4 harg4 arg5 harg5 arg6 harg6 arg7 harg7 x1 x2 x3 x4 x5 x6 1 (by decide) _ _ _ _ _ _ _ l, a_lane]
  rfl

/-- The first hidden layer of perceptron 2 before its bias, on `b'`. -/
theorem pre2_lane (j : Fin 32) :
    A1 (View.readAt (Elt Ideal) arg3.view (Rect.unit (s := S4x32x1) ![2, 0, 0] S1x32x1.size inb_S4x32x1_S1x32x1_2_0_0).toLoadRect (harg3.unread x2))
        (trip_k0_t1.sl.r_4 arg1 arg2 arg3 arg4 arg5 arg6 arg7 (harg1.unread x0) (harg2.unread x1) (harg3.unread x2) (harg4.unread x3) (harg5.unread x4) (harg6.unread x5) (harg7.unread x6) k) (ix2 j l)
      = max (x1 (ix3 (2 : Fin 4) j (0 : Fin 1)) * tNewB (stg x1 x2 x3 x4 x5 x6) (x0 (ix2 (0 : Fin 2) (col k l))) (x0 (ix2 (1 : Fin 2) (col k l)))
          + x2 (ix3 (2 : Fin 4) j (0 : Fin 1))) 0 := by
  unfold trip_k0_t1.sl.r_4
  rw [pay7_eq]
  refine (hidden1_slab arg2 harg2 arg3 harg3 x1 x2 2 (by decide) _ _ _ j l).trans ?_
  rw [show k0_pay6 (trip_k0_t1.sl.r arg1 (harg1.unread x0) k) (trip_k0_t1.sl.r_1 arg1 (harg1.unread x0) k)
        (trip_k0_t1.sl.r_2 arg1 arg2 arg3 arg4 arg5 arg6 arg7 (harg1.unread x0) (harg2.unread x1) (harg3.unread x2) (harg4.unread x3) (harg5.unread x4) (harg6.unread x5) (harg7.unread x6) k) _ _ _ _ _ _ (ix2 (0 : Fin 1) l)
      = tNewB (stg x1 x2 x3 x4 x5 x6) (x0 (ix2 (0 : Fin 2) (col k l))) (x0 (ix2 (1 : Fin 2) (col k l)))
    from newB_lane arg1 harg1 arg2 harg2 arg3 harg3 arg4 harg4 arg5 harg5 arg6 harg6 arg7 harg7 x0 x1 x2 x3 x4 x5 x6 k l]
  rfl

/-- `l₂ = mlp 2 b'`. -/
theorem l2_lane : trip_k0_t1.sl.r_5 arg1 arg2 arg3 arg4 arg5 arg6 arg7 (harg1.unread x0) (harg2.unread x1) (harg3.unread x2) (harg4.unread x3) (harg5.unread x4) (harg6.unread x5) (harg7.unread x6) k (ix2 (0 : Fin 1) l)
      = tmlp (stg x1 x2 x3 x4 x5 x6) 2 (tNewB (stg x1 x2 x3 x4 x5 x6) (x0 (ix2 (0 : Fin 2) (col k l))) (x0 (ix2 (1 : Fin 2) (col k l)))) := by
  unfold trip_k0_t1.sl.r_5
  rw [pay8_eq]
  refine (upper_slab arg4 harg4 arg5 harg5 arg6 harg6 arg7 harg7 x3 x4 x5 x6 2 (by decide) _ _ _ _ _ _ l
    (fun j => pre2_lane arg1 harg1 arg2 harg2 arg3 harg3 arg4 harg4 arg5 harg5 arg6 harg6 arg7 harg7 x0 x1 x2 x3 x4 x5 x6 k l j)).trans ?_
  rfl

/-- `a · exp l₂`. -/
theorem aexp_lane : trip_k0_t1.sl.r_6 arg1 arg2 arg3 arg4 arg5 arg6 arg7 (harg1.unread x0) (harg2.unread x1) (harg3.unread x2) (harg4.unread x3) (harg5.unread x4) (harg6.unread x5) (harg7.unread x6) k (ix2 (0 : Fin 1) l)
      = x0 (ix2 (0 : Fin 2) (col k l))
        * Ideal.exp (tmlp (stg x1 x2 x3 x4 x5 x6) 2 (tNewB (stg x1 x2 x3 x4 x5 x6) (x0 (ix2 (0 : Fin 2) (col k l))) (x0 (ix2 (1 : Fin 2) (col k l))))) := by
  unfold trip_k0_t1.sl.r_6
  rw [pay9_eq]
  show trip_k0_t1.sl.r arg1 (harg1.unread x0) k (ix2 (0 : Fin 1) l)
      * Ideal.exp (trip_k0_t1.sl.r_5 arg1 arg2 arg3 arg4 arg5 arg6 arg7 (harg1.unread x0) (harg2.unread x1) (harg3.unread x2) (harg4.unread x3) (harg5.unread x4) (harg6.unread x5) (harg7.unread x6) k (ix2 (0 : Fin 1) l)) = _
  rw [a_lane, l2_lane]

/-- The first hidden layer of perceptron 3 on `b'`. -/
theorem hid3_lane (j : Fin 32) : trip_k0_t1.sl.r_7 arg1 arg2 arg3 arg4 arg5 arg6 arg7 (harg1.unread x0) (harg2.unread x1) (harg3.unread x2) (harg4.unread x3) (harg5.unread x4) (harg6.unread x5) (harg7.unread x6) k (ix2 j l)
      = max (x1 (ix3 (3 : Fin 4) j (0 : Fin 1)) * tNewB (stg x1 x2 x3 x4 x5 x6) (x0 (ix2 (0 : Fin 2) (col k l))) (x0 (ix2 (1 : Fin 2) (col k l)))
          + x2 (ix3 (3 : Fin 4) j (0 : Fin 1))) 0 := by
  unfold trip_k0_t1.sl.r_7
  rw [pay10_eq]
  refine (hidden1_slab arg2 harg2 arg3 harg3 x1 x2 3 (by decide) _ _ _ j l).trans ?_
  rw [newB_lane]
  rfl

/-- What the trip stores into row 0 of the first output block: `a' = a · exp l₂ + mlp 3 b'`. -/
theorem newA_lane :
    k0_pay1 (trip_k0_t1.sl.r_6 arg1 arg2 arg3 arg4 arg5 arg6 arg7 (harg1.unread x0) (harg2.unread x1) (harg3.unread x2) (harg4.unread x3) (harg5.unread x4) (harg6.unread x5) (harg7.unread x6) k) (trip_k0_t1.sl.r_7 arg1 arg2 arg3 arg4 arg5 arg6 arg7 (harg1.unread x0) (harg2.unread x1) (harg3.unread x2) (harg4.unread x3) (harg5.unread x4) (harg6.unread x5) (harg7.unread x6) k)
        (View.readAt (Elt Ideal) arg4.view (Rect.unit (s := S4x32x32) ![3, 0, 0] S1x32x32.size inb_S4x32x32_S1x32x32_3_0_0).toLoadRect (harg4.unread x3))
        (View.readAt (Elt Ideal) arg5.view (Rect.unit (s := S4x32x1) ![3, 0, 0] S1x32x1.size inb_S4x32x1_S1x32x1_3_0_0).toLoadRect (harg5.unread x4))
        (View.readAt (Elt Ideal) arg6.view (Rect.unit (s := S4x1x32) ![3, 0, 0] S1x1x32.size inb_S4x1x32_S1x1x32_3_0_0).toLoadRect (harg6.unread x5))
        (View.readAt (Elt Ideal) arg7.view (Rect.unit (s := S4x1x1) ![3, 0, 0] S1x1x1.size inb_S4x1x1_S1x1x1_3_0_0).toLoadRect (harg7.unread x6))
        (ix2 (0 : Fin 1) l)
      = tNewA (stg x1 x2 x3 x4 x5 x6) (x0 (ix2 (0 : Fin 2) (col k l))) (x0 (ix2 (1 : Fin 2) (col k l))) := by
  rw [pay1_eq]
  show trip_k0_t1.sl.r_6 arg1 arg2 arg3 arg4 arg5 arg6 arg7 (harg1.unread x0) (harg2.unread x1) (harg3.unread x2) (harg4.unread x3) (harg5.unread x4) (harg6.unread x5) (harg7.unread x6) k (ix2 (0 : Fin 1) l) + L3 _ _ (L2 _ _ (trip_k0_t1.sl.r_7 arg1 arg2 arg3 arg4 arg5 arg6 arg7 (harg1.unread x0) (harg2.unread x1) (harg3.unread x2) (harg4.unread x3) (harg5.unread x4) (harg6.unread x5) (harg7.unread x6) k)) (ix2 (0 : Fin 1) l) = _
  rw [aexp_lane, upper_slab arg4 harg4 arg5 harg5 arg6 harg6 arg7 harg7 x3 x4 x5 x6 3 (by decide) _ _ _ _ _ _ l
    (fun j => hid3_lane arg1 harg1 arg2 harg2 arg3 harg3 arg4 harg4 arg5 harg5 arg6 harg6 arg7 harg7 x0 x1 x2 x3 x4 x5 x6 k l j)]
  rfl

/-- What the trip stores into the second output block: `l₁ + l₂`. -/
theorem logDet_lane :
    k0_pay2 (trip_k0_t1.sl.r_2 arg1 arg2 arg3 arg4 arg5 arg6 arg7 (harg1.unread x0) (harg2.unread x1) (harg3.unread x2) (harg4.unread x3) (harg5.unread x4) (harg6.unread x5) (harg7.unread x6) k) (trip_k0_t1.sl.r_5 arg1 arg2 arg3 arg4 arg5 arg6 arg7 (harg1.unread x0) (harg2.unread x1) (harg3.unread x2) (harg4.unread x3) (harg5.unread x4) (harg6.unread x5) (harg7.unread x6) k) (ix2 (0 : Fin 1) l)
      = tLogDetRow (stg x1 x2 x3 x4 x5 x6) (x0 (ix2 (0 : Fin 2) (col k l))) (x0 (ix2 (1 : Fin 2) (col k l))) := by
  rw [pay2_eq]
  show trip_k0_t1.sl.r_2 arg1 arg2 arg3 arg4 arg5 arg6 arg7 (harg1.unread x0) (harg2.unread x1) (harg3.unread x2) (harg4.unread x3) (harg5.unread x4) (harg6.unread x5) (harg7.unread x6) k (ix2 (0 : Fin 1) l) + trip_k0_t1.sl.r_5 arg1 arg2 arg3 arg4 arg5 arg6 arg7 (harg1.unread x0) (harg2.unread x1) (harg3.unread x2) (harg4.unread x3) (harg5.unread x4) (harg6.unread x5) (harg7.unread x6) k (ix2 (0 : Fin 1) l) = _
  rw [l1_lane, l2_lane]
  rfl

end Trip

end Cert.KTrip

end
-- ==== Proof.KBlock.lean ====
/-
  What one grid point leaves in its two output blocks.

  The body's loop makes sixteen trips; trip `k` stores three `[1, 8192]` rows at lanes
  `8192·k …`: the new `a'` into row 0 and the new `b'` into row 1 of the `[2, 131072]` block, and
  `l₁ + l₂` into the `[1, 131072]` block. Every stored row is the restriction of ONE function of the
  block index — `blkZ` resp. `blkL`: the flow's row function at the input block's column — so the
  block, which the stores tile, ends holding that function, whatever order the stores were made in.
-/
import proofs.«181282_j62749472195096_2_alg».proof.Proof.Gen.KernelIdeal.Frame
import proofs.«181282_j62749472195096_2_alg».proof.Proof.KTrip

set_option maxRecDepth 16384

noncomputable section

open scoped BigOperators

namespace Cert.KBlock

open Cert.KernelIdeal Cert.KernelIdeal.Gen Cert.KLayers Cert.KTrip Cert.Flow Idealize.ShloMosaic Idealize.ShloMosaic.ValueIdx
open Idealize.SL.Sem

/-- The first output block as a function of the input block and the staged weights: row 0 the new `a'`, row 1 the new `b'`. -/
def blkZ (S : Staged) (x0 : Vec Ideal S2x131072 .f32) : S2x131072.Idx → EReal := fun y =>
  if (y 0).val = 0 then tNewA S (x0 (ix2 (0 : Fin 2) (y 1 : Fin 131072))) (x0 (ix2 (1 : Fin 2) (y 1 : Fin 131072)))
  else tNewB S (x0 (ix2 (0 : Fin 2) (y 1 : Fin 131072))) (x0 (ix2 (1 : Fin 2) (y 1 : Fin 131072)))

/-- The second output block: `l₁ + l₂` of the input block's column. -/
def blkL (S : Staged) (x0 : Vec Ideal S2x131072 .f32) : S1x131072.Idx → EReal := fun y =>
  tLogDetRow S (x0 (ix2 (0 : Fin 2) (y 1 : Fin 131072))) (x0 (ix2 (1 : Fin 2) (y 1 : Fin 131072)))

theorem blkZ_row0 (S : Staged) (x0 : Vec Ideal S2x131072 .f32) (n : Fin 131072) :
    blkZ S x0 (ix2 (0 : Fin 2) n) = tNewA S (x0 (ix2 (0 : Fin 2) n)) (x0 (ix2 (1 : Fin 2) n)) := if_pos rfl

theorem blkZ_row1 (S : Staged) (x0 : Vec Ideal S2x131072 .f32) (n : Fin 131072) :
    blkZ S x0 (ix2 (1 : Fin 2) n) = tNewB S (x0 (ix2 (0 : Fin 2) n)) (x0 (ix2 (1 : Fin 2) n)) :=
  if_neg (by show ¬ ((1 : Fin 2).val = 0); decide)

theorem blkL_row (S : Staged) (x0 : Vec Ideal S2x131072 .f32) (n : Fin 131072) :
    blkL S x0 (ix2 (0 : Fin 1) n) = tLogDetRow S (x0 (ix2 (0 : Fin 2) n)) (x0 (ix2 (1 : Fin 2) n)) := rfl

/-! ## Where a trip's stores land -/

theorem store0_emb (k : Fin k0_t1_loop.trips) (inb) (l : Fin 8192) :
    (Rect.unit (s := S2x131072) (k0_off1 k) ![1, 8192] inb).emb (ix2 (0 : Fin 1) l) = ix2 (0 : Fin 2) (col k l) := by
  funext a
  refine Fin.ext ?_
  match a with
  | ⟨0, _⟩ => show k0_off1 k 0 + 1 * 0 = 0; rw [k0_off1_eq]; rfl
  | ⟨1, _⟩ => show k0_off1 k 1 + 1 * l.val = 8192 * k.val + l.val; rw [k0_off1_eq]; simp

theorem store1_emb (k : Fin k0_t1_loop.trips) (inb) (l : Fin 8192) :
    (Rect.unit (s := S2x131072) (k0_off2 k) ![1, 8192] inb).emb (ix2 (0 : Fin 1) l) = ix2 (1 : Fin 2) (col k l) := by
  funext a
  refine Fin.ext ?_
  match a with
  | ⟨0, _⟩ => show k0_off2 k 0 + 1 * 0 = 1; rw [k0_off2_eq]; rfl
  | ⟨1, _⟩ => show k0_off2 k 1 + 1 * l.val = 8192 * k.val + l.val; rw [k0_off2_eq]; simp

theorem storeL_emb (k : Fin k0_t1_loop.trips) (inb) (l : Fin 8192) :
    (Rect.unit (s := S1x131072) (k0_off3 k) ![1, 8192] inb).emb (ix2 (0 : Fin 1) l) = ix2 (0 : Fin 1) (col k l) := by
  funext a
  refine Fin.ext ?_
  match a with
  | ⟨0, _⟩ => show k0_off3 k 0 + 1 * 0 = 0; rw [k0_off3_eq]; rfl
  | ⟨1, _⟩ => show k0_off3 k 1 + 1 * l.val = 8192 * k.val + l.val; rw [k0_off3_eq]; simp

section Pieces

variable (c : Dev nD) (i : grid0.Coords)
  (arg1 : Memref sig .tc .vmem S2x131072 .f32) (harg1 : arg1.IsWhole)
  (arg2 : Memref sig .tc .vmem S4x32x1 .f32) (harg2 : arg2.IsWhole) (arg3 : Memref sig .tc .vmem S4x32x1 .f32) (harg3 : arg3.IsWhole)
  (arg4 : Memref sig .tc .vmem S4x32x32 .f32) (harg4 : arg4.IsWhole) (arg5 : Memref sig .tc .vmem S4x32x1 .f32) (harg5 : arg5.IsWhole)
  (arg6 : Memref sig .tc .vmem S4x1x32 .f32) (harg6 : arg6.IsWhole) (arg7 : Memref sig .tc .vmem S4x1x1 .f32) (harg7 : arg7.IsWhole)
  (arg8 : Memref sig .tc .vmem S2x131072 .f32) (harg8 : arg8.IsWhole) (arg9 : Memref sig .tc .vmem S1x131072 .f32) (harg9 : arg9.IsWhole)
  (x0 : Vec Ideal S2x131072 .f32)
  (x1 x2 : Vec Ideal S4x32x1 .f32) (x3 : Vec Ideal S4x32x32 .f32) (x4 : Vec Ideal S4x32x1 .f32) (x5 : Vec Ideal S4x1x32 .f32) (x6 : Vec Ideal S4x1x1 .f32)

/-- Trip `k`'s two stores into the first output block are rows of `blkZ`. -/
theorem trip_piecesZ (k : Fin k0_t1_loop.trips) :
    ∀ p ∈ (tripL_k0_t1 (F := Ideal) Variants.none c none i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) k).1,
      ∀ x : p.1.shape.Idx, p.2 x = blkZ (stg x1 x2 x3 x4 x5 x6) x0 (p.1.emb x) := by
  intro p hp
  unfold tripL_k0_t1 at hp
  unfold trip_k0_t1 at hp
  dsimp only at hp
  rcases List.mem_cons.mp hp with rfl | hp
  · intro x
    obtain ⟨q, l, rfl⟩ : ∃ (q : Fin 1) (l : Fin 8192), x = ix2 q l := ⟨x 0, x 1, eq_ix2 x⟩
    obtain rfl : q = 0 := Subsingleton.elim _ _
    rw [store1_emb, blkZ_row1]
    exact newB_lane arg1 harg1 arg2 harg2 arg3 harg3 arg4 harg4 arg5 harg5 arg6 harg6 arg7 harg7 x0 x1 x2 x3 x4 x5 x6 k l
  · rcases List.mem_cons.mp hp with rfl | hp
    · intro x
      obtain ⟨q, l, rfl⟩ : ∃ (q : Fin 1) (l : Fin 8192), x = ix2 q l := ⟨x 0, x 1, eq_ix2 x⟩
      obtain rfl : q = 0 := Subsingleton.elim _ _
      rw [store0_emb, blkZ_row0]
      exact newA_lane arg1 harg1 arg2 harg2 arg3 harg3 arg4 harg4 arg5 harg5 arg6 harg6 arg7 harg7 x0 x1 x2 x3 x4 x5 x6 k l
    · exact absurd hp List.not_mem_nil

/-- Trip `k`'s store into the second output block is a row of `blkL`. -/
theorem trip_piecesL (k : Fin k0_t1_loop.trips) :
    ∀ p ∈ (tripL_k0_t1 (F := Ideal) Variants.none c none i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) k).2,
      ∀ x : p.1.shape.Idx, p.2 x = blkL (stg x1 x2 x3 x4 x5 x6) x0 (p.1.emb x) := by
  intro p hp
  unfold tripL_k0_t1 at hp
  unfold trip_k0_t1 at hp
  dsimp only at hp
  rcases List.mem_cons.mp hp with rfl | hp
  · intro x
    obtain ⟨q, l, rfl⟩ : ∃ (q : Fin 1) (l : Fin 8192), x = ix2 q l := ⟨x 0, x 1, eq_ix2 x⟩
    obtain rfl : q = 0 := Subsingleton.elim _ _
    rw [storeL_emb, blkL_row]
    exact logDet_lane arg1 harg1 arg2 harg2 arg3 harg3 arg4 harg4 arg5 harg5 arg6 harg6 arg7 harg7 x0 x1 x2 x3 x4 x5 x6 k l
  · exact absurd hp List.not_mem_nil

/-- So are the stores of all the trips before the `n`-th. -/
theorem pb_pieces : ∀ (n : ℕ) (_ : n ≤ k0_t1_loop.trips),
    (∀ p ∈ (pb_k0_t1 (F := Ideal) Variants.none c none i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) n).1,
      ∀ x : p.1.shape.Idx, p.2 x = blkZ (stg x1 x2 x3 x4 x5 x6) x0 (p.1.emb x))
    ∧ (∀ p ∈ (pb_k0_t1 (F := Ideal) Variants.none c none i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) n).2,
      ∀ x : p.1.shape.Idx, p.2 x = blkL (stg x1 x2 x3 x4 x5 x6) x0 (p.1.emb x))
  | 0, _ => ⟨fun p hp => absurd hp List.not_mem_nil, fun p hp => absurd hp List.not_mem_nil⟩
  | n + 1, hn => by
    have e := pb_k0_t1_succ (F := Ideal) Variants.none c none i arg1 harg1 arg2 harg2 arg3 harg3 arg4 harg4 arg5 harg5 arg6 harg6 arg7 harg7 arg8 harg8 arg9 harg9 (harg1.unread x0) (harg2.unread x1) (harg3.unread x2) (harg4.unread x3) (harg5.unread x4) (harg6.unread x5) (harg7.unread x6) ⟨n, hn⟩
    have ih := pb_pieces n (Nat.le_of_succ_le hn)
    refine ⟨fun p hp => ?_, fun p hp => ?_⟩
    · rw [show n + 1 = (⟨n, hn⟩ : Fin k0_t1_loop.trips).val + 1 from rfl, e] at hp
      rcases List.mem_append.mp hp with h | h
      · exact trip_piecesZ c i arg1 harg1 arg2 harg2 arg3 harg3 arg4 harg4 arg5 harg5 arg6 harg6 arg7 harg7 arg8 harg8 arg9 harg9 x0 x1 x2 x3 x4 x5 x6 ⟨n, hn⟩ p h
      · exact ih.1 p h
    · rw [show n + 1 = (⟨n, hn⟩ : Fin k0_t1_loop.trips).val + 1 from rfl, e] at hp
      rcases List.mem_append.mp hp with h | h
      · exact trip_piecesL c i arg1 harg1 arg2 harg2 arg3 harg3 arg4 harg4 arg5 harg5 arg6 harg6 arg7 harg7 arg8 harg8 arg9 harg9 x0 x1 x2 x3 x4 x5 x6 ⟨n, hn⟩ p h
      · exact ih.2 p h

/-- The first output block after the body: `blkZ` of the input block. -/
theorem outZ_eq :
    out0_A_7 (F := Ideal) c i arg1 harg1 arg2 harg2 arg3 harg3 arg4 harg4 arg5 harg5 arg6 harg6 arg7 harg7 arg8 harg8 arg9 harg9 x0 x1 x2 x3 x4 x5 x6 = blkZ (stg x1 x2 x3 x4 x5 x6) x0 := by
  funext y
  unfold out0_A_7
  rw [View.read_writes_apply_eq_canon _ _ y _ (cover0_A_7 c i arg1 harg1 arg2 harg2 arg3 harg3 arg4 harg4 arg5 harg5 arg6 harg6 arg7 harg7 arg8 harg8 arg9 harg9 x0 x1 x2 x3 x4 x5 x6 y)]
  refine View.canon_apply_of_pieces _ _ ?_ y (cover0_A_7 c i arg1 harg1 arg2 harg2 arg3 harg3 arg4 harg4 arg5 harg5 arg6 harg6 arg7 harg7 arg8 harg8 arg9 harg9 x0 x1 x2 x3 x4 x5 x6 y)
  exact (pb_pieces c i arg1 harg1 arg2 harg2 arg3 harg3 arg4 harg4 arg5 harg5 arg6 harg6 arg7 harg7 arg8 harg8 arg9 harg9 x0 x1 x2 x3 x4 x5 x6 k0_t1_loop.trips le_rfl).1

/-- The second output block after the body: `blkL` of the input block. -/
theorem outL_eq :
    out0_A_8 (F := Ideal) c i arg1 harg1 arg2 harg2 arg3 harg3 arg4 harg4 arg5 harg5 arg6 harg6 arg7 harg7 arg8 harg8 arg9 harg9 x0 x1 x2 x3 x4 x5 x6 = blkL (stg x1 x2 x3 x4 x5 x6) x0 := by
  funext y
  unfold out0_A_8
  rw [View.read_writes_apply_eq_canon _ _ y _ (cover0_A_8 c i arg1 harg1 arg2 harg2 arg3 harg3 arg4 harg4 arg5 harg5 arg6 harg6 arg7 harg7 arg8 harg8 arg9 harg9 x0 x1 x2 x3 x4 x5 x6 y)]
  refine View.canon_apply_of_pieces _ _ ?_ y (cover0_A_8 c i arg1 harg1 arg2 harg2 arg3 harg3 arg4 harg4 arg5 harg5 arg6 harg6 arg7 harg7 arg8 harg8 arg9 harg9 x0 x1 x2 x3 x4 x5 x6 y)
  exact (pb_pieces c i arg1 harg1 arg2 harg2 arg3 harg3 arg4 harg4 arg5 harg5 arg6 harg6 arg7 harg7 arg8 harg8 arg9 harg9 x0 x1 x2 x3 x4 x5 x6 k0_t1_loop.trips le_rfl).2

end Pieces

end Cert.KBlock

end
-- ==== Proof.KArrays.lean ====
/-
  From blocks to arrays: what the two output arrays hold after all sixteen grid points.

  Grid point `t` is handed columns `131072·t … 131072·t + 131071` of the transposed input `zT : [2, B]`
  and all of the six staged weight arrays, and writes back the same columns of the two outputs. Its
  blocks are `blkZ` and `blkL` of its input block, which are the restrictions to those columns of
  ONE function of the whole arrays each: `arrZ` (row 0 the new `a'`, row 1 the new `b'`, of column `n`
  of `zT`) and `arrL` (`l₁ + l₂` of column `n`). The sixteen blocks tile the arrays (column `n` is in
  block `n / 131072`), so the arrays end holding `arrZ` and `arrL`.
-/
import proofs.«181282_j62749472195096_2_alg».proof.Proof.Gen.KernelIdeal.Frame
import proofs.«181282_j62749472195096_2_alg».proof.Proof.KBlock
import Idealize.ShloMosaic.Lib.Pipeline.Value

set_option maxRecDepth 16384

noncomputable section

open scoped BigOperators

namespace Cert.KArrays

open Cert.KernelIdeal Cert.KernelIdeal.Gen Cert.KTrip Cert.KBlock Cert.Flow Idealize.ShloMosaic Idealize.ShloMosaic.ValueIdx
open Idealize.ShloMosaic.TcCoe Idealize.SL.Sem Idealize.ShloMosaic.Pipeline

/-- The first output array `[2, B]` as a function of the transposed input and the staged weights. -/
def arrZ (S : Staged) (zT : S2x2097152.Idx → EReal) : S2x2097152.Idx → EReal := fun i =>
  if (i 0).val = 0 then tNewA S (zT (ix2 (0 : Fin 2) (i 1 : Fin 2097152))) (zT (ix2 (1 : Fin 2) (i 1 : Fin 2097152)))
  else tNewB S (zT (ix2 (0 : Fin 2) (i 1 : Fin 2097152))) (zT (ix2 (1 : Fin 2) (i 1 : Fin 2097152)))

/-- The second output array `[1, B]`. -/
def arrL (S : Staged) (zT : S2x2097152.Idx → EReal) : S1x2097152.Idx → EReal := fun i =>
  tLogDetRow S (zT (ix2 (0 : Fin 2) (i 1 : Fin 2097152))) (zT (ix2 (1 : Fin 2) (i 1 : Fin 2097152)))

/-- A block of `arrZ`: if the input block's columns are the array's columns under the same placement `e`. -/
theorem blkZ_arr (S : Staged) (zT : S2x2097152.Idx → EReal) (x0 : S2x131072.Idx → EReal) (e : S2x131072.Idx → S2x2097152.Idx)
    (h0 : ∀ j : S2x131072.Idx, x0 (ix2 (0 : Fin 2) (j 1 : Fin 131072)) = zT (ix2 (0 : Fin 2) (e j 1 : Fin 2097152)))
    (h1 : ∀ j : S2x131072.Idx, x0 (ix2 (1 : Fin 2) (j 1 : Fin 131072)) = zT (ix2 (1 : Fin 2) (e j 1 : Fin 2097152)))
    (hr : ∀ j : S2x131072.Idx, (e j 0).val = (j 0).val) (j : S2x131072.Idx) : blkZ S x0 j = arrZ S zT (e j) := by
  unfold blkZ arrZ
  rw [h0 j, h1 j, hr j]

theorem blkL_arr (S : Staged) (zT : S2x2097152.Idx → EReal) (x0 : S2x131072.Idx → EReal) (e : S1x131072.Idx → S1x2097152.Idx)
    (h0 : ∀ j : S1x131072.Idx, x0 (ix2 (0 : Fin 2) (j 1 : Fin 131072)) = zT (ix2 (0 : Fin 2) (e j 1 : Fin 2097152)))
    (h1 : ∀ j : S1x131072.Idx, x0 (ix2 (1 : Fin 2) (j 1 : Fin 131072)) = zT (ix2 (1 : Fin 2) (e j 1 : Fin 2097152)))
    (j : S1x131072.Idx) : blkL S x0 j = arrL S zT (e j) := by
  unfold blkL arrL
  rw [h0 j, h1 j]

/-- The printed index maps over the grid: the input and the two outputs move along the columns with the point, the
    weight arrays stay. -/
theorem idx_facts : ∀ t : Fin cfg0.N,
    win0_0.index t (0 : Fin 2) = 0 ∧ win0_0.index t (1 : Fin 2) = t.val
    ∧ win0_7.index t (0 : Fin 2) = 0 ∧ win0_7.index t (1 : Fin 2) = t.val
    ∧ win0_8.index t (0 : Fin 2) = 0 ∧ win0_8.index t (1 : Fin 2) = t.val
    ∧ (∀ a : Fin 3, win0_1.index t a = 0) ∧ (∀ a : Fin 3, win0_2.index t a = 0) ∧ (∀ a : Fin 3, win0_3.index t a = 0)
    ∧ (∀ a : Fin 3, win0_4.index t a = 0) ∧ (∀ a : Fin 3, win0_5.index t a = 0) ∧ (∀ a : Fin 3, win0_6.index t a = 0) :=
  (by decide +kernel : ∀ t : Fin grid0.N, _)

section Run

variable (m : (ℓ : Loc nD τ sig) → Buf (Elt Ideal) ℓ)

/-- The staged weight arrays as the region finds them. -/
def stgV (c : Dev nD) : Staged :=
  stg (V m c main_v1) (V m c main_v4) (V m c main_v2) (V m c main_v5) (V m c main_v3) (V m c main_v6)

/-! The weight windows hold their whole arrays at every point. -/

theorem iblk1 (c : Dev nD) (t : Fin cfg0.N) (y : S4x32x1.Idx) : iblk m c 1 t y = V m c main_v1 y := by
  obtain ⟨-, -, -, -, -, -, h, -⟩ := idx_facts t
  show V m c main_v1 (((cfg0.win 1).blk t).view.emb y) = _
  refine congrArg (V m c main_v1) (funext fun a => Fin.ext ?_)
  match a with
  | ⟨0, _⟩ => show win0_1.index t (0 : Fin 3) * 4 + 1 * (y 0).val = (y 0).val; rw [h]; omega
  | ⟨1, _⟩ => show win0_1.index t (1 : Fin 3) * 32 + 1 * (y 1).val = (y 1).val; rw [h]; omega
  | ⟨2, _⟩ => show win0_1.index t (2 : Fin 3) * 1 + 1 * (y 2).val = (y 2).val; rw [h]; omega

theorem iblk2 (c : Dev nD) (t : Fin cfg0.N) (y : S4x32x1.Idx) : iblk m c 2 t y = V m c main_v4 y := by
  obtain ⟨-, -, -, -, -, -, -, h, -⟩ := idx_facts t
  show V m c main_v4 (((cfg0.win 2).blk t).view.emb y) = _
  refine congrArg (V m c main_v4) (funext fun a => Fin.ext ?_)
  match a with
  | ⟨0, _⟩ => show win0_2.index t (0 : Fin 3) * 4 + 1 * (y 0).val = (y 0).val; rw [h]; omega
  | ⟨1, _⟩ => show win0_2.index t (1 : Fin 3) * 32 + 1 * (y 1).val = (y 1).val; rw [h]; omega
  | ⟨2, _⟩ => show win0_2.index t (2 : Fin 3) * 1 + 1 * (y 2).val = (y 2).val; rw [h]; omega

theorem iblk3 (c : Dev nD) (t : Fin cfg0.N) (y : S4x32x32.Idx) : iblk m c 3 t y = V m c main_v2 y := by
  obtain ⟨-, -, -, -, -, -, -, -, h, -⟩ := idx_facts t
  show V m c main_v2 (((cfg0.win 3).blk t).view.emb y) = _
  refine congrArg (V m c main_v2) (funext fun a => Fin.ext ?_)
  match a with
  | ⟨0, _⟩ => show win0_3.index t (0 : Fin 3) * 4 + 1 * (y 0).val = (y 0).val; rw [h]; omega
  | ⟨1, _⟩ => show win0_3.index t (1 : Fin 3) * 32 + 1 * (y 1).val = (y 1).val; rw [h]; omega
  | ⟨2, _⟩ => show win0_3.index t (2 : Fin 3) * 32 + 1 * (y 2).val = (y 2).val; rw [h]; omega

theorem iblk4 (c : Dev nD) (t : Fin cfg0.N) (y : S4x32x1.Idx) : iblk m c 4 t y = V m c main_v5 y := by
  obtain ⟨-, -, -, -, -, -, -, -, -, h, -⟩ := idx_facts t
  show V m c main_v5 (((cfg0.win 4).blk t).view.emb y) = _
  refine congrArg (V m c main_v5) (funext fun a => Fin.ext ?_)
  match a with
  | ⟨0, _⟩ => show win0_4.index t (0 : Fin 3) * 4 + 1 * (y 0).val = (y 0).val; rw [h]; omega
  | ⟨1, _⟩ => show win0_4.index t (1 : Fin 3) * 32 + 1 * (y 1).val = (y 1).val; rw [h]; omega
  | ⟨2, _⟩ => show win0_4.index t (2 : Fin 3) * 1 + 1 * (y 2).val = (y 2).val; rw [h]; omega

theorem iblk5 (c : Dev nD) (t : Fin cfg0.N) (y : S4x1x32.Idx) : iblk m c 5 t y = V m c main_v3 y := by
  obtain ⟨-, -, -, -, -, -, -, -, -, -, h, -⟩ := idx_facts t
  show V m c main_v3 (((cfg0.win 5).blk t).view.emb y) = _
  refine congrArg (V m c main_v3) (funext fun a => Fin.ext ?_)
  match a with
  | ⟨0, _⟩ => show win0_5.index t (0 : Fin 3) * 4 + 1 * (y 0).val = (y 0).val; rw [h]; omega
  | ⟨1, _⟩ => show win0_5.index t (1 : Fin 3) * 1 + 1 * (y 1).val = (y 1).val; rw [h]; omega
  | ⟨2, _⟩ => show win0_5.index t (2 : Fin 3) * 32 + 1 * (y 2).val = (y 2).val; rw [h]; omega

theorem iblk6 (c : Dev nD) (t : Fin cfg0.N) (y : S4x1x1.Idx) : iblk m c 6 t y = V m c main_v6 y := by
  obtain ⟨-, -, -, -, -, -, -, -, -, -, -, h⟩ := idx_facts t
  show V m c main_v6 (((cfg0.win 6).blk t).view.emb y) = _
  refine congrArg (V m c main_v6) (funext fun a => Fin.ext ?_)
  match a with
  | ⟨0, _⟩ => show win0_6.index t (0 : Fin 3) * 4 + 1 * (y 0).val = (y 0).val; rw [h]; omega
  | ⟨1, _⟩ => show win0_6.index t (1 : Fin 3) * 1 + 1 * (y 1).val = (y 1).val; rw [h]; omega
  | ⟨2, _⟩ => show win0_6.index t (2 : Fin 3) * 1 + 1 * (y 2).val = (y 2).val; rw [h]; omega

theorem stg_iblk (c : Dev nD) (t : Fin cfg0.N) :
    stg (iblk m c 1 t) (iblk m c 2 t) (iblk m c 3 t) (iblk m c 4 t) (iblk m c 5 t) (iblk m c 6 t) = stgV m c := by
  unfold stgV stg
  congr 1
  · exact funext (iblk1 m c t)
  · exact funext (iblk2 m c t)
  · exact funext (iblk3 m c t)
  · exact funext (iblk4 m c t)
  · exact funext (iblk5 m c t)
  · exact funext (iblk6 m c t)

/-- The input window's block at point `t`, row `r`, lane `n`: column `131072·t + n` of the transposed input, which is where
    the first output's block places its lane `n`. -/
theorem iblk0_Z (c : Dev nD) (t : Fin cfg0.N) (r : Fin 2) (j : S2x131072.Idx) :
    iblk m c 0 t (ix2 r (j 1 : Fin 131072)) = V m c main_v0 (ix2 r ((((cfg0.win 7).blk t).view.emb j) 1 : Fin 2097152)) := by
  obtain ⟨e0, e1, e2, e3, -⟩ := idx_facts t
  show V m c main_v0 (((cfg0.win 0).blk t).view.emb (ix2 r (j 1 : Fin 131072))) = _
  refine congrArg (V m c main_v0) (funext fun a => Fin.ext ?_)
  match a with
  | ⟨0, _⟩ => show win0_0.index t (0 : Fin 2) * 2 + 1 * r.val = r.val; rw [e0]; omega
  | ⟨1, _⟩ =>
    show win0_0.index t (1 : Fin 2) * 131072 + 1 * (j 1).val = win0_7.index t (1 : Fin 2) * 131072 + 1 * (j 1).val
    rw [e1, e3]

theorem iblk0_L (c : Dev nD) (t : Fin cfg0.N) (r : Fin 2) (j : S1x131072.Idx) :
    iblk m c 0 t (ix2 r (j 1 : Fin 131072)) = V m c main_v0 (ix2 r ((((cfg0.win 8).blk t).view.emb j) 1 : Fin 2097152)) := by
  obtain ⟨e0, e1, -, -, e4, e5, -⟩ := idx_facts t
  show V m c main_v0 (((cfg0.win 0).blk t).view.emb (ix2 r (j 1 : Fin 131072))) = _
  refine congrArg (V m c main_v0) (funext fun a => Fin.ext ?_)
  match a with
  | ⟨0, _⟩ => show win0_0.index t (0 : Fin 2) * 2 + 1 * r.val = r.val; rw [e0]; omega
  | ⟨1, _⟩ =>
    show win0_0.index t (1 : Fin 2) * 131072 + 1 * (j 1).val = win0_8.index t (1 : Fin 2) * 131072 + 1 * (j 1).val
    rw [e1, e5]

/-- What point `t` writes back into the first output: block `t` of `arrZ`. -/
theorem flushedZ_eq (c : Dev nD) (t : Fin cfg0.N) :
    (dats m 0 c).flushed 7 t = ((cfg0.win 7).blk t).view.read (Elt Ideal) (arrZ (stgV m c) (V m c main_v0)) := by
  show (cfg0.win 7).cut (grid0.coords t) ((dats m 0 c).after 7 t) = _
  rw [after0_7]
  unfold outsAt0
  dsimp only
  have e := outZ_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t)
  rw [stg_iblk m c t] at e
  refine (congrArg ((cfg0.win 7).cut (grid0.coords t)) e).trans ?_
  funext j
  obtain ⟨-, -, e2, -⟩ := idx_facts t
  refine blkZ_arr (stgV m c) (V m c main_v0) (iblk m c 0 t) (((cfg0.win 7).blk t).view.emb)
    (fun j => iblk0_Z m c t 0 j) (fun j => iblk0_Z m c t 1 j) (fun j => ?_) j
  show win0_7.index t (0 : Fin 2) * 2 + 1 * (j 0).val = (j 0).val
  rw [e2]; omega

/-- What point `t` writes back into the second output: block `t` of `arrL`. -/
theorem flushedL_eq (c : Dev nD) (t : Fin cfg0.N) :
    (dats m 0 c).flushed 8 t = ((cfg0.win 8).blk t).view.read (Elt Ideal) (arrL (stgV m c) (V m c main_v0)) := by
  show (cfg0.win 8).cut (grid0.coords t) ((dats m 0 c).after 8 t) = _
  rw [after0_8]
  unfold outsAt0
  dsimp only
  have e := outL_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t)
  rw [stg_iblk m c t] at e
  refine (congrArg ((cfg0.win 8).cut (grid0.coords t)) e).trans ?_
  funext j
  exact blkL_arr (stgV m c) (V m c main_v0) (iblk m c 0 t) (((cfg0.win 8).blk t).view.emb)
    (fun j => iblk0_L m c t 0 j) (fun j => iblk0_L m c t 1 j) j

/-- An index of the first output is in point `t`'s block iff each coordinate is in the block's range. -/
theorem mem_blkZ (t : Fin cfg0.N) (i : S2x2097152.Idx) :
    i ∈ ((cfg0.win 7).blk t).view.set ↔ ∀ a : Fin 2, win0_7.index t a * S2x131072.size a ≤ (i a).val ∧ (i a).val < win0_7.index t a * S2x131072.size a + S2x131072.size a := by
  show i ∈ ((View.whole main_v7_0).slice (win0_7.rect t)).set ↔ _
  rw [View.set_slice_whole, Rect.mem_set_unit]
  exact Iff.rfl

theorem mem_blkL (t : Fin cfg0.N) (i : S1x2097152.Idx) :
    i ∈ ((cfg0.win 8).blk t).view.set ↔ ∀ a : Fin 2, win0_8.index t a * S1x131072.size a ≤ (i a).val ∧ (i a).val < win0_8.index t a * S1x131072.size a + S1x131072.size a := by
  show i ∈ ((View.whole main_v7_1).slice (win0_8.rect t)).set ↔ _
  rw [View.set_slice_whole, Rect.mem_set_unit]
  exact Iff.rfl

/-- Column `n` of the first output is in block `n / 131072`. -/
theorem coverZ (i : S2x2097152.Idx) : ∃ t : Fin cfg0.N, (cfg0.win 7).flush t = true ∧ i ∈ ((cfg0.win 7).blk t).view.set := by
  have hi0 : (i 0).val < 2 := (i 0).isLt
  have hi1 : (i 1).val < 2097152 := (i 1).isLt
  let t : Fin cfg0.N := ⟨(i 1).val / 131072, by rw [show cfg0.N = 16 from N_0]; omega⟩
  refine ⟨t, flush0_7 t, ?_⟩
  obtain ⟨-, -, e2, e3, -⟩ := idx_facts t
  rw [mem_blkZ]
  intro a
  match a with
  | ⟨0, _⟩ => show win0_7.index t (0 : Fin 2) * 2 ≤ (i 0).val ∧ (i 0).val < win0_7.index t (0 : Fin 2) * 2 + 2; rw [e2]; omega
  | ⟨1, _⟩ =>
    show win0_7.index t (1 : Fin 2) * 131072 ≤ (i 1).val ∧ (i 1).val < win0_7.index t (1 : Fin 2) * 131072 + 131072
    rw [e3]; show (i 1).val / 131072 * 131072 ≤ (i 1).val ∧ (i 1).val < (i 1).val / 131072 * 131072 + 131072; omega

theorem coverL (i : S1x2097152.Idx) : ∃ t : Fin cfg0.N, (cfg0.win 8).flush t = true ∧ i ∈ ((cfg0.win 8).blk t).view.set := by
  have hi0 : (i 0).val < 1 := (i 0).isLt
  have hi1 : (i 1).val < 2097152 := (i 1).isLt
  let t : Fin cfg0.N := ⟨(i 1).val / 131072, by rw [show cfg0.N = 16 from N_0]; omega⟩
  refine ⟨t, flush0_8 t, ?_⟩
  obtain ⟨-, -, -, -, e4, e5, -⟩ := idx_facts t
  rw [mem_blkL]
  intro a
  match a with
  | ⟨0, _⟩ => show win0_8.index t (0 : Fin 2) * 1 ≤ (i 0).val ∧ (i 0).val < win0_8.index t (0 : Fin 2) * 1 + 1; rw [e4]; omega
  | ⟨1, _⟩ =>
    show win0_8.index t (1 : Fin 2) * 131072 ≤ (i 1).val ∧ (i 1).val < win0_8.index t (1 : Fin 2) * 131072 + 131072
    rw [e5]; show (i 1).val / 131072 * 131072 ≤ (i 1).val ∧ (i 1).val < (i 1).val / 131072 * 131072 + 131072; omega

/-- The first output array after the region. -/
theorem finalZ (c : Dev nD) : (dats m 0 c).arrAt 7 cfg0.N = arrZ (stgV m c) (V m c main_v0) :=
  (dats m 0 c).arrAt_eq_of_cover 7 _ (fun t _ => flushedZ_eq m c t) coverZ

/-- The second output array after the region. -/
theorem finalL (c : Dev nD) : (dats m 0 c).arrAt 8 cfg0.N = arrL (stgV m c) (V m c main_v0) :=
  (dats m 0 c).arrAt_eq_of_cover 8 _ (fun t _ => flushedL_eq m c t) coverL

end Run

end Cert.KArrays

end
-- ==== Proof.KMain.lean ====
/-
  The feature-major program from end to end.

  Before the region the host lays the arguments out feature-major: `zT = zᵀ`, the three weight
  arrays with their last two axes swapped, the three biases as columns. After it, it transposes the
  `[2, B]` result back to `[B, 2]` and flattens the `[1, B]` one to `[B]`. Read at an index, the
  staged weights are the feature-major layout of the arguments, `zT (r, n) = z (n, r)`, and so the two
  results are the flow's: row `n` of the first is `(a', b')` of row `n` of `z`, entry `n` of the second
  is `l₁ + l₂` of it.
-/
import proofs.«181282_j62749472195096_2_alg».proof.Proof.Gen.KernelIdeal.Frame
import proofs.«181282_j62749472195096_2_alg».proof.Proof.KArrays
import Idealize.ShloMosaic.Lib.StableHlo.Run
import Idealize.ShloMosaic.Lib.ValueLayout

set_option maxRecDepth 16384

noncomputable section

open scoped BigOperators

namespace Cert.KMain

open Cert.KernelIdeal Cert.KernelIdeal.Gen Cert.KTrip Cert.KBlock Cert.KArrays Cert.Flow Idealize.ShloMosaic Idealize.ShloMosaic.ValueIdx
open Idealize.ShloMosaic.TcCoe Idealize.SL.Sem Idealize.ShloMosaic.Pipeline Idealize.ShloMosaic.StableHlo

variable (m : (ℓ : Loc nD τ sig) → Buf (Elt Ideal) ℓ)

/-- The six weight arguments on core `c`, as the flow's weights. -/
def params (c : Dev nD) : Params :=
  ⟨m ((c : Thread nD τ).loc main_arg1), m ((c : Thread nD τ).loc main_arg2), m ((c : Thread nD τ).loc main_arg3),
    m ((c : Thread nD τ).loc main_arg4), m ((c : Thread nD τ).loc main_arg5), m ((c : Thread nD τ).loc main_arg6)⟩

/-! ## The host operations before the region -/

theorem V_v0 (c : Dev nD) : (V m c main_v0 : S2x2097152.Idx → EReal)
    = transpose S2x2097152 [1, 0] (m ((c : Thread nD τ).loc main_arg0)) transposes_S2097152x2_S2x2097152_1_0 := by
  show StableHlo.after hostOps0 (fun b => m (c, b)) (Proc.devRef .tc main_v0) = _
  after_results

theorem V_v1 (c : Dev nD) : (V m c main_v1 : S4x32x1.Idx → EReal)
    = transpose S4x32x1 [0, 2, 1] (m ((c : Thread nD τ).loc main_arg1)) transposes_S4x1x32_S4x32x1_0_2_1 := by
  show StableHlo.after hostOps0 (fun b => m (c, b)) (Proc.devRef .tc main_v1) = _
  after_results

theorem V_v2 (c : Dev nD) : (V m c main_v2 : S4x32x32.Idx → EReal)
    = transpose S4x32x32 [0, 2, 1] (m ((c : Thread nD τ).loc main_arg3)) transposes_S4x32x32_S4x32x32_0_2_1 := by
  show StableHlo.after hostOps0 (fun b => m (c, b)) (Proc.devRef .tc main_v2) = _
  after_results

theorem V_v3 (c : Dev nD) : (V m c main_v3 : S4x1x32.Idx → EReal)
    = transpose S4x1x32 [0, 2, 1] (m ((c : Thread nD τ).loc main_arg5)) transposes_S4x32x1_S4x1x32_0_2_1 := by
  show StableHlo.after hostOps0 (fun b => m (c, b)) (Proc.devRef .tc main_v3) = _
  after_results

theorem V_v4 (c : Dev nD) : (V m c main_v4 : S4x32x1.Idx → EReal)
    = broadcastInDim S4x32x1 ![0, 1] bcast_S4x32_S4x32x1_0_1 (m ((c : Thread nD τ).loc main_arg2)) := by
  show StableHlo.after hostOps0 (fun b => m (c, b)) (Proc.devRef .tc main_v4) = _
  after_results

theorem V_v5 (c : Dev nD) : (V m c main_v5 : S4x32x1.Idx → EReal)
    = broadcastInDim S4x32x1 ![0, 1] bcast_S4x32_S4x32x1_0_1 (m ((c : Thread nD τ).loc main_arg4)) := by
  show StableHlo.after hostOps0 (fun b => m (c, b)) (Proc.devRef .tc main_v5) = _
  after_results

theorem V_v6 (c : Dev nD) : (V m c main_v6 : S4x1x1.Idx → EReal)
    = broadcastInDim S4x1x1 ![0, 1] bcast_S4x1_S4x1x1_0_1 (m ((c : Thread nD τ).loc main_arg6)) := by
  show StableHlo.after hostOps0 (fun b => m (c, b)) (Proc.devRef .tc main_v6) = _
  after_results

/-- `zT (r, n) = z (n, r)`. -/
theorem zT_apply (c : Dev nD) (r : Fin 2) (n : Fin 2097152) :
    V m c main_v0 (ix2 r n) = m ((c : Thread nD τ).loc main_arg0) (ix2 n r) := by
  rw [V_v0]; exact transpose_ix2_apply _ _ r n

/-- A bias `[4, n]` laid as a column `[4, n, 1]`, read at `(i, j, 0)`. -/
theorem bcol3_apply {α : Type} {n : ℕ} (x : (⟨2, ![4, n]⟩ : Shape).Idx → α)
    (h : (⟨2, ![4, n]⟩ : Shape).BroadcastsInDim ⟨3, ![4, n, 1]⟩ ![0, 1]) (i : (⟨3, ![4, n, 1]⟩ : Shape).Idx) :
    broadcastInDim ⟨3, ![4, n, 1]⟩ ![0, 1] h x i = x (ix2 (i 0) (i 1)) := by
  refine broadcastInDim_apply _ h x i (ix2 (i 0) (i 1)) fun a => ?_
  match a with
  | ⟨0, _⟩ => show (i 0).val = if (4 : ℕ) = 1 then 0 else (i 0).val; rw [if_neg (by decide)]
  | ⟨1, _⟩ =>
    show (i 1).val = if n = 1 then 0 else (i 1).val
    split
    · have h1 : (i 1).val < n := (i 1).isLt; omega
    · rfl

/-- The staged weights the region finds are the feature-major layout of the arguments. -/
theorem stgV_eq (c : Dev nD) : stgV m c = Staged.ofParams (params m c) := by
  unfold stgV stg Staged.ofParams params
  congr 1
  · funext i
    obtain ⟨a, b, d, rfl⟩ : ∃ (a : Fin 4) (b : Fin 32) (d : Fin 1), i = ix3 a b d := ⟨i 0, i 1, i 2, eq_ix3 i⟩
    obtain rfl : d = 0 := Subsingleton.elim _ _
    rw [V_v1]; exact transpose_ix3_021_apply _ _ a b (0 : Fin 1)
  · funext i; rw [V_v4]; exact bcol3_apply _ _ i
  · funext i
    obtain ⟨a, b, d, rfl⟩ : ∃ (a : Fin 4) (b : Fin 32) (d : Fin 32), i = ix3 a b d := ⟨i 0, i 1, i 2, eq_ix3 i⟩
    rw [V_v2]; exact transpose_ix3_021_apply _ _ a b d
  · funext i; rw [V_v5]; exact bcol3_apply _ _ i
  · funext i
    obtain ⟨a, b, d, rfl⟩ : ∃ (a : Fin 4) (b : Fin 1) (d : Fin 32), i = ix3 a b d := ⟨i 0, i 1, i 2, eq_ix3 i⟩
    obtain rfl : b = 0 := Subsingleton.elim _ _
    rw [V_v3]; exact transpose_ix3_021_apply _ _ a (0 : Fin 1) d
  · funext i
    obtain ⟨a, b, d, rfl⟩ : ∃ (a : Fin 4) (b : Fin 1) (d : Fin 1), i = ix3 a b d := ⟨i 0, i 1, i 2, eq_ix3 i⟩
    obtain rfl : b = 0 := Subsingleton.elim _ _
    rw [V_v6]; exact bcol3_apply _ _ _

/-! ## The host operations after the region -/

/-- The first result: the first output array transposed back; row `n` is `(a', b')` of row `n` of `z`. -/
theorem tailZ (c : Dev nD) :
    (Pipeline.afterTail₀ cfgs (dats m) 0 (V0 m) [hostOps1] c main_v8 : S2097152x2.Idx → EReal)
      = zOut (params m c) (m ((c : Thread nD τ).loc main_arg0)) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v7_0)
      = arrZ (stgV m c) (V m c main_v0) :=
    (Pipeline.withArrays_arr spec0 launch0.win.arr_inj c _ _ 7).trans (finalZ m c)
  rw [e]
  funext i
  obtain ⟨n, q, rfl⟩ : ∃ (n : Fin 2097152) (q : Fin 2), i = ix2 n q := ⟨i 0, i 1, eq_ix2 i⟩
  rw [transpose_ix2_apply]
  unfold arrZ zOut
  rw [stgV_eq, zT_apply, zT_apply, tNewA_ofParams, tNewB_ofParams]

/-- The second result: the second output array flattened; entry `n` is `l₁ + l₂` of row `n` of `z`. -/
theorem tailL (c : Dev nD) :
    (Pipeline.afterTail₀ cfgs (dats m) 0 (V0 m) [hostOps1] c main_v9 : S2097152.Idx → EReal)
      = logDet (params m c) (m ((c : Thread nD τ).loc main_arg0)) := by
  unfold Pipeline.afterTail₀
  show StableHlo.after hostOps1 _ (Proc.devRef .tc main_v9) = _
  after_results
  have e : Pipeline.withArrays (cfgs 0).spec c (V0 m c) (fun w => (dats m 0 c).arrAt w (cfgs 0).N) (Proc.devRef .tc main_v7_1)
      = arrL (stgV m c) (V m c main_v0) :=
    (Pipeline.withArrays_arr spec0 launch0.win.arr_inj c _ _ 8).trans (finalL m c)
  rw [e]
  funext i
  obtain ⟨n, rfl⟩ : ∃ n : Fin 2097152, i = ix1 n := ⟨i 0, eq_ix1 i⟩
  show shapeCast S2097152 (arrL (stgV m c) (V m c main_v0)) shapeCasts_S1x2097152_S2097152 (ix1 n) = _
  rw [shapeCast_1a_a_apply]
  unfold arrL logDet
  rw [stgV_eq, zT_apply, zT_apply, tLogDetRow_ofParams]

/-! ## The run -/

/-- Every weakly fair execution of the feature-major program terminates with its two results at the flow's functions
    of the arguments, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v8) = zOut (params m c) (m ((c.tc : Thread nD τ).loc main_arg0))
      ∧ r.2.mem ((c.tc : Thread nD τ).loc main_v9) = logDet (params m c) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v8 (Pipeline.mem_restRefs_of main_v8 (by decide) (by decide))).trans (tailZ m c),
      ((h c).2 main_v9 (Pipeline.mem_restRefs_of main_v9 (by decide) (by decide))).trans (tailL m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KMain

end
-- ==== Proof.RefBlock0.lean ====
/-
  The reference's first perceptron block (weights sliced at 0), layer by layer, at one row.
-/
import proofs.«181282_j62749472195096_2_alg».proof.Proof.Gen.ReferenceIdeal.Read
import proofs.«181282_j62749472195096_2_alg».proof.Proof.Flow

noncomputable section

open scoped BigOperators

namespace Cert.RefFlow

open Cert.ReferenceIdeal Cert.ReferenceIdeal.Gen Cert.ReferenceIdeal.Read Idealize.ShloMosaic Idealize.ShloMosaic.ValueIdx Cert.Flow

variable (x0 : (⟨S2097152x2, .f32⟩ : BufTy).Contents (Elt Ideal)) (x1 : (⟨S4x1x32, .f32⟩ : BufTy).Contents (Elt Ideal)) (x2 : (⟨S4x32, .f32⟩ : BufTy).Contents (Elt Ideal)) (x3 : (⟨S4x32x32, .f32⟩ : BufTy).Contents (Elt Ideal)) (x4 : (⟨S4x32, .f32⟩ : BufTy).Contents (Elt Ideal)) (x5 : (⟨S4x32x1, .f32⟩ : BufTy).Contents (Elt Ideal)) (x6 : (⟨S4x1, .f32⟩ : BufTy).Contents (Elt Ideal))

/-! ## Perceptron 0, read from the first column of `z`

The first perceptron block of the reference: three matrix products, each followed by the addition of a
broadcast bias row, the first two also by a maximum with zero. Its weights are the slices `[0:1, …]` of the
six weight arrays. Each layer is read at one row `n` and one unit. -/

/-- First hidden layer, unit `j`: the product over the one input column, plus the bias, clamped at zero. -/
theorem ref_hid1_0 (n : Fin 2097152) (j : Fin 32) :
    val_main_v10 (F := Ideal) x0 x1 x2 (ix2 n j) = hid1 ⟨x1, x2, x3, x4, x5, x6⟩ 0 (x0 (ix2 n 0)) j := by
  rw [val_main_v10_apply, val_main_v9_apply, val_main_v4_apply, val_main_v8_apply, val_main_v7_apply, val_main_v6_apply,
    val_main_v5_apply, val_main_call0_v0_apply, val_main_call0_cst_apply, Fin.sum_univ_one,
    val_main_v0_apply, val_main_v3_apply, val_main_v2_apply]
  have e0 : idx_main_v0 (lidx_main_v4 (ix2 n j) 0) = ix2 n 0 :=
    funext fun a => Fin.ext (by match a with | ⟨0, _⟩ => rfl | ⟨1, _⟩ => rfl)
  have e1 : idx_main_v2 (idx_main_v3 (ridx_main_v4 (ix2 n j) 0)) = ix3 0 0 j :=
    funext fun a => Fin.ext (by
      match a with
      | ⟨0, _⟩ => rfl
      | ⟨1, _⟩ => rfl
      | ⟨2, _⟩ => show (0 * 32 + j.val) % 32 = j.val; omega)
  have e2 : idx_main_v5 (idx_main_v6 (idx_main_v7 (idx_main_v8 (ix2 n j)))) = ix2 0 j :=
    funext fun a => Fin.ext (by
      match a with
      | ⟨0, _⟩ => rfl
      | ⟨1, _⟩ => show j.val % 32 = j.val; omega)
  rw [e0, e1, e2, Ideal.maximumf_def, Ideal.addf_def, Ideal.ofBits_def, Ideal.ofBits_zero_f32]
  rfl

/-- Second hidden layer, unit `k`: the sum over the 32 first-layer units, plus the bias, clamped at zero. -/
theorem ref_hid2_0 (n : Fin 2097152) (k : Fin 32) :
    val_main_v19 (F := Ideal) x0 x1 x2 x3 x4 (ix2 n k) = hid2 ⟨x1, x2, x3, x4, x5, x6⟩ 0 (x0 (ix2 n 0)) k := by
  rw [val_main_v19_apply, val_main_v18_apply, val_main_v13_apply, val_main_v17_apply, val_main_v16_apply, val_main_v15_apply,
    val_main_v14_apply, val_main_call1_v0_apply, val_main_call1_cst_apply]
  have es : ∀ j : Fin 32,
      val_main_v10 (F := Ideal) x0 x1 x2 (lidx_main_v13 (ix2 n k) j) * val_main_v12 (F := Ideal) x3 (ridx_main_v13 (ix2 n k) j)
        = hid1 ⟨x1, x2, x3, x4, x5, x6⟩ 0 (x0 (ix2 n 0)) j * x3 (ix3 0 j k) := by
    intro j
    have el : lidx_main_v13 (ix2 n k) j = ix2 n j :=
      funext fun a => Fin.ext (by match a with | ⟨0, _⟩ => rfl | ⟨1, _⟩ => rfl)
    have er : idx_main_v11 (idx_main_v12 (ridx_main_v13 (ix2 n k) j)) = ix3 0 j k :=
      funext fun a => Fin.ext (by
        match a with
        | ⟨0, _⟩ => rfl
        | ⟨1, _⟩ => show (j.val * 32 + k.val) / 32 % 32 = j.val; omega
        | ⟨2, _⟩ => show (j.val * 32 + k.val) % 32 = k.val; omega)
    rw [el, ref_hid1_0, val_main_v12_apply, val_main_v11_apply, er]
  have e2 : idx_main_v14 (idx_main_v15 (idx_main_v16 (idx_main_v17 (ix2 n k)))) = ix2 0 k :=
    funext fun a => Fin.ext (by
      match a with
      | ⟨0, _⟩ => rfl
      | ⟨1, _⟩ => show k.val % 32 = k.val; omega)
  rw [Finset.sum_congr rfl fun j _ => es j, e2, Ideal.maximumf_def, Ideal.addf_def, Ideal.ofBits_def,
    Ideal.ofBits_zero_f32]
  rfl

/-- The perceptron's output on row `n`: the sum over the 32 second-layer units, plus the bias. -/
theorem ref_mlp_0 (n : Fin 2097152) :
    val_main_v27 (F := Ideal) x0 x1 x2 x3 x4 x5 x6 (ix2 n 0) = mlp ⟨x1, x2, x3, x4, x5, x6⟩ 0 (x0 (ix2 n 0)) := by
  rw [val_main_v27_apply, val_main_v22_apply, val_main_v26_apply, val_main_v25_apply, val_main_v24_apply, val_main_v23_apply]
  have es : ∀ k : Fin 32,
      val_main_v19 (F := Ideal) x0 x1 x2 x3 x4 (lidx_main_v22 (ix2 n 0) k) * val_main_v21 (F := Ideal) x5 (ridx_main_v22 (ix2 n 0) k)
        = hid2 ⟨x1, x2, x3, x4, x5, x6⟩ 0 (x0 (ix2 n 0)) k * x5 (ix3 0 k 0) := by
    intro k
    have el : lidx_main_v22 (ix2 n 0) k = ix2 n k :=
      funext fun a => Fin.ext (by match a with | ⟨0, _⟩ => rfl | ⟨1, _⟩ => rfl)
    have er : idx_main_v20 (idx_main_v21 (ridx_main_v22 (ix2 n 0) k)) = ix3 0 k 0 :=
      funext fun a => Fin.ext (by
        match a with
        | ⟨0, _⟩ => rfl
        | ⟨1, _⟩ => show (k.val * 1 + 0) / 1 % 32 = k.val; omega
        | ⟨2, _⟩ => rfl)
    rw [el, ref_hid2_0, val_main_v21_apply, val_main_v20_apply, er]
  have e2 : idx_main_v23 (idx_main_v24 (idx_main_v25 (idx_main_v26 (ix2 n 0)))) = ix2 0 0 :=
    funext fun a => Fin.ext (by match a with | ⟨0, _⟩ => rfl | ⟨1, _⟩ => rfl)
  rw [Finset.sum_congr rfl fun k _ => es k, e2, Ideal.addf_def]
  rfl

end Cert.RefFlow

end
-- ==== Proof.RefBlock1.lean ====
/-
  The reference's second perceptron block (weights sliced at 1), layer by layer, at one row.
-/
import proofs.«181282_j62749472195096_2_alg».proof.Proof.Gen.ReferenceIdeal.Read
import proofs.«181282_j62749472195096_2_alg».proof.Proof.Flow

noncomputable section

open scoped BigOperators

namespace Cert.RefFlow

open Cert.ReferenceIdeal Cert.ReferenceIdeal.Gen Cert.ReferenceIdeal.Read Idealize.ShloMosaic Idealize.ShloMosaic.ValueIdx Cert.Flow

variable (x0 : (⟨S2097152x2, .f32⟩ : BufTy).Contents (Elt Ideal)) (x1 : (⟨S4x1x32, .f32⟩ : BufTy).Contents (Elt Ideal)) (x2 : (⟨S4x32, .f32⟩ : BufTy).Contents (Elt Ideal)) (x3 : (⟨S4x32x32, .f32⟩ : BufTy).Contents (Elt Ideal)) (x4 : (⟨S4x32, .f32⟩ : BufTy).Contents (Elt Ideal)) (x5 : (⟨S4x32x1, .f32⟩ : BufTy).Contents (Elt Ideal)) (x6 : (⟨S4x1, .f32⟩ : BufTy).Contents (Elt Ideal))

/-! ## Perceptron 1, read from the first column of `z`

The second perceptron block of the reference: three matrix products, each followed by the addition of a
broadcast bias row, the first two also by a maximum with zero. Its weights are the slices `[1:2, …]` of the
six weight arrays. Each layer is read at one row `n` and one unit. -/

/-- First hidden layer, unit `j`: the product over the one input column, plus the bias, clamped at zero. -/
theorem ref_hid1_1 (n : Fin 2097152) (j : Fin 32) :
    val_main_v38 (F := Ideal) x0 x1 x2 (ix2 n j) = hid1 ⟨x1, x2, x3, x4, x5, x6⟩ 1 (x0 (ix2 n 0)) j := by
  rw [val_main_v38_apply, val_main_v37_apply, val_main_v32_apply, val_main_v36_apply, val_main_v35_apply, val_main_v34_apply,
    val_main_v33_apply, val_main_call2_v0_apply, val_main_call2_cst_apply, Fin.sum_univ_one,
    val_main_v0_apply, val_main_v31_apply, val_main_v30_apply]
  have e0 : idx_main_v0 (lidx_main_v32 (ix2 n j) 0) = ix2 n 0 :=
    funext fun a => Fin.ext (by match a with | ⟨0, _⟩ => rfl | ⟨1, _⟩ => rfl)
  have e1 : idx_main_v30 (idx_main_v31 (ridx_main_v32 (ix2 n j) 0)) = ix3 1 0 j :=
    funext fun a => Fin.ext (by
      match a with
      | ⟨0, _⟩ => rfl
      | ⟨1, _⟩ => rfl
      | ⟨2, _⟩ => show (0 * 32 + j.val) % 32 = j.val; omega)
  have e2 : idx_main_v33 (idx_main_v34 (idx_main_v35 (idx_main_v36 (ix2 n j)))) = ix2 1 j :=
    funext fun a => Fin.ext (by
      match a with
      | ⟨0, _⟩ => rfl
      | ⟨1, _⟩ => show j.val % 32 = j.val; omega)
  rw [e0, e1, e2, Ideal.maximumf_def, Ideal.addf_def, Ideal.ofBits_def, Ideal.ofBits_zero_f32]
  rfl

/-- Second hidden layer, unit `k`: the sum over the 32 first-layer units, plus the bias, clamped at zero. -/
theorem ref_hid2_1 (n : Fin 2097152) (k : Fin 32) :
    val_main_v47 (F := Ideal) x0 x1 x2 x3 x4 (ix2 n k) = hid2 ⟨x1, x2, x3, x4, x5, x6⟩ 1 (x0 (ix2 n 0)) k := by
  rw [val_main_v47_apply, val_main_v46_apply, val_main_v41_apply, val_main_v45_apply, val_main_v44_apply, val_main_v43_apply,
    val_main_v42_apply, val_main_call3_v0_apply, val_main_call3_cst_apply]
  have es : ∀ j : Fin 32,
      val_main_v38 (F := Ideal) x0 x1 x2 (lidx_main_v41 (ix2 n k) j) * val_main_v40 (F := Ideal) x3 (ridx_main_v41 (ix2 n k) j)
        = hid1 ⟨x1, x2, x3, x4, x5, x6⟩ 1 (x0 (ix2 n 0)) j * x3 (ix3 1 j k) := by
    intro j
    have el : lidx_main_v41 (ix2 n k) j = ix2 n j :=
      funext fun a => Fin.ext (by match a with | ⟨0, _⟩ => rfl | ⟨1, _⟩ => rfl)
    have er : idx_main_v39 (idx_main_v40 (ridx_main_v41 (ix2 n k) j)) = ix3 1 j k :=
      funext fun a => Fin.ext (by
        match a with
        | ⟨0, _⟩ => rfl
        | ⟨1, _⟩ => show (j.val * 32 + k.val) / 32 % 32 = j.val; omega
        | ⟨2, _⟩ => show (j.val * 32 + k.val) % 32 = k.val; omega)
    rw [el, ref_hid1_1, val_main_v40_apply, val_main_v39_apply, er]
  have e2 : idx_main_v42 (idx_main_v43 (idx_main_v44 (idx_main_v45 (ix2 n k)))) = ix2 1 k :=
    funext fun a => Fin.ext (by
      match a with
      | ⟨0, _⟩ => rfl
      | ⟨1, _⟩ => show k.val % 32 = k.val; omega)
  rw [Finset.sum_congr rfl fun j _ => es j, e2, Ideal.maximumf_def, Ideal.addf_def, Ideal.ofBits_def,
    Ideal.ofBits_zero_f32]
  rfl

/-- The perceptron's output on row `n`: the sum over the 32 second-layer units, plus the bias. -/
theorem ref_mlp_1 (n : Fin 2097152) :
    val_main_v55 (F := Ideal) x0 x1 x2 x3 x4 x5 x6 (ix2 n 0) = mlp ⟨x1, x2, x3, x4, x5, x6⟩ 1 (x0 (ix2 n 0)) := by
  rw [val_main_v55_apply, val_main_v50_apply, val_main_v54_apply, val_main_v53_apply, val_main_v52_apply, val_main_v51_apply]
  have es : ∀ k : Fin 32,
      val_main_v47 (F := Ideal) x0 x1 x2 x3 x4 (lidx_main_v50 (ix2 n 0) k) * val_main_v49 (F := Ideal) x5 (ridx_main_v50 (ix2 n 0) k)
        = hid2 ⟨x1, x2, x3, x4, x5, x6⟩ 1 (x0 (ix2 n 0)) k * x5 (ix3 1 k 0) := by
    intro k
    have el : lidx_main_v50 (ix2 n 0) k = ix2 n k :=
      funext fun a => Fin.ext (by match a with | ⟨0, _⟩ => rfl | ⟨1, _⟩ => rfl)
    have er : idx_main_v48 (idx_main_v49 (ridx_main_v50 (ix2 n 0) k)) = ix3 1 k 0 :=
      funext fun a => Fin.ext (by
        match a with
        | ⟨0, _⟩ => rfl
        | ⟨1, _⟩ => show (k.val * 1 + 0) / 1 % 32 = k.val; omega
        | ⟨2, _⟩ => rfl)
    rw [el, ref_hid2_1, val_main_v49_apply, val_main_v48_apply, er]
  have e2 : idx_main_v51 (idx_main_v52 (idx_main_v53 (idx_main_v54 (ix2 n 0)))) = ix2 1 0 :=
    funext fun a => Fin.ext (by match a with | ⟨0, _⟩ => rfl | ⟨1, _⟩ => rfl)
  rw [Finset.sum_congr rfl fun k _ => es k, e2, Ideal.addf_def]
  rfl

end Cert.RefFlow

end
-- ==== Proof.RefNewB.lean ====
/-
  The reference's new second column `b'` at one row, from the first two perceptron blocks.
-/
import proofs.«181282_j62749472195096_2_alg».proof.Proof.RefBlock0
import proofs.«181282_j62749472195096_2_alg».proof.Proof.RefBlock1

noncomputable section

open scoped BigOperators

namespace Cert.RefFlow

open Cert.ReferenceIdeal Cert.ReferenceIdeal.Gen Cert.ReferenceIdeal.Read Idealize.ShloMosaic Idealize.ShloMosaic.ValueIdx Cert.Flow

variable (x0 : (⟨S2097152x2, .f32⟩ : BufTy).Contents (Elt Ideal)) (x1 : (⟨S4x1x32, .f32⟩ : BufTy).Contents (Elt Ideal)) (x2 : (⟨S4x32, .f32⟩ : BufTy).Contents (Elt Ideal)) (x3 : (⟨S4x32x32, .f32⟩ : BufTy).Contents (Elt Ideal)) (x4 : (⟨S4x32, .f32⟩ : BufTy).Contents (Elt Ideal)) (x5 : (⟨S4x32x1, .f32⟩ : BufTy).Contents (Elt Ideal)) (x6 : (⟨S4x1, .f32⟩ : BufTy).Contents (Elt Ideal))

/-! ## The new second column

`b' = b · exp (mlp 0 a) + mlp 1 a`, with `a` and `b` the two entries of row `n` of `z`. -/

/-- The second column's slice of `z` at row `n` is `z n 1`; the exponential is the extended reals'. -/
theorem ref_newB (n : Fin 2097152) :
    val_main_v56 (F := Ideal) x0 x1 x2 x3 x4 x5 x6 (ix2 n 0) = newB ⟨x1, x2, x3, x4, x5, x6⟩ (x0 (ix2 n 0)) (x0 (ix2 n 1)) := by
  rw [val_main_v56_apply, val_main_v29_apply, val_main_v28_apply, val_main_v1_apply, ref_mlp_0, ref_mlp_1]
  have e1 : idx_main_v1 (ix2 n 0) = ix2 n 1 :=
    funext fun a => Fin.ext (by match a with | ⟨0, _⟩ => rfl | ⟨1, _⟩ => rfl)
  rw [e1, Ideal.addf_def, Ideal.mulf_def, Ideal.hostUnary_exp_def]
  rfl

end Cert.RefFlow

end
-- ==== Proof.RefBlock2.lean ====
/-
  The reference's third perceptron block (weights sliced at 2), read from the new second column, at one row.
-/
import proofs.«181282_j62749472195096_2_alg».proof.Proof.RefNewB

noncomputable section

open scoped BigOperators

namespace Cert.RefFlow

open Cert.ReferenceIdeal Cert.ReferenceIdeal.Gen Cert.ReferenceIdeal.Read Idealize.ShloMosaic Idealize.ShloMosaic.ValueIdx Cert.Flow

variable (x0 : (⟨S2097152x2, .f32⟩ : BufTy).Contents (Elt Ideal)) (x1 : (⟨S4x1x32, .f32⟩ : BufTy).Contents (Elt Ideal)) (x2 : (⟨S4x32, .f32⟩ : BufTy).Contents (Elt Ideal)) (x3 : (⟨S4x32x32, .f32⟩ : BufTy).Contents (Elt Ideal)) (x4 : (⟨S4x32, .f32⟩ : BufTy).Contents (Elt Ideal)) (x5 : (⟨S4x32x1, .f32⟩ : BufTy).Contents (Elt Ideal)) (x6 : (⟨S4x1, .f32⟩ : BufTy).Contents (Elt Ideal))

/-! ## Perceptron 2, read from the new second column `b'`

The third perceptron block of the reference: three matrix products, each followed by the addition of a
broadcast bias row, the first two also by a maximum with zero. Its weights are the slices `[2:3, …]` of the
six weight arrays. Each layer is read at one row `n` and one unit. -/

/-- First hidden layer, unit `j`: the product over the one input column, plus the bias, clamped at zero. -/
theorem ref_hid1_2 (n : Fin 2097152) (j : Fin 32) :
    val_main_v65 (F := Ideal) x0 x1 x2 x3 x4 x5 x6 (ix2 n j) = hid1 ⟨x1, x2, x3, x4, x5, x6⟩ 2 (newB ⟨x1, x2, x3, x4, x5, x6⟩ (x0 (ix2 n 0)) (x0 (ix2 n 1))) j := by
  rw [val_main_v65_apply, val_main_v64_apply, val_main_v59_apply, val_main_v63_apply, val_main_v62_apply, val_main_v61_apply,
    val_main_v60_apply, val_main_call4_v0_apply, val_main_call4_cst_apply, Fin.sum_univ_one,
    val_main_v58_apply, val_main_v57_apply]
  have e0 : lidx_main_v59 (ix2 n j) 0 = ix2 n 0 :=
    funext fun a => Fin.ext (by match a with | ⟨0, _⟩ => rfl | ⟨1, _⟩ => rfl)
  have e1 : idx_main_v57 (idx_main_v58 (ridx_main_v59 (ix2 n j) 0)) = ix3 2 0 j :=
    funext fun a => Fin.ext (by
      match a with
      | ⟨0, _⟩ => rfl
      | ⟨1, _⟩ => rfl
      | ⟨2, _⟩ => show (0 * 32 + j.val) % 32 = j.val; omega)
  have e2 : idx_main_v60 (idx_main_v61 (idx_main_v62 (idx_main_v63 (ix2 n j)))) = ix2 2 j :=
    funext fun a => Fin.ext (by
      match a with
      | ⟨0, _⟩ => rfl
      | ⟨1, _⟩ => show j.val % 32 = j.val; omega)
  rw [e0, ref_newB, e1, e2, Ideal.maximumf_def, Ideal.addf_def, Ideal.ofBits_def, Ideal.ofBits_zero_f32]
  rfl

/-- Second hidden layer, unit `k`: the sum over the 32 first-layer units, plus the bias, clamped at zero. -/
theorem ref_hid2_2 (n : Fin 2097152) (k : Fin 32) :
    val_main_v74 (F := Ideal) x0 x1 x2 x3 x4 x5 x6 (ix2 n k) = hid2 ⟨x1, x2, x3, x4, x5, x6⟩ 2 (newB ⟨x1, x2, x3, x4, x5, x6⟩ (x0 (ix2 n 0)) (x0 (ix2 n 1))) k := by
  rw [val_main_v74_apply, val_main_v73_apply, val_main_v68_apply, val_main_v72_apply, val_main_v71_apply, val_main_v70_apply,
    val_main_v69_apply, val_main_call5_v0_apply, val_main_call5_cst_apply]
  have es : ∀ j : Fin 32,
      val_main_v65 (F := Ideal) x0 x1 x2 x3 x4 x5 x6 (lidx_main_v68 (ix2 n k) j) * val_main_v67 (F := Ideal) x3 (ridx_main_v68 (ix2 n k) j)
        = hid1 ⟨x1, x2, x3, x4, x5, x6⟩ 2 (newB ⟨x1, x2, x3, x4, x5, x6⟩ (x0 (ix2 n 0)) (x0 (ix2 n 1))) j * x3 (ix3 2 j k) := by
    intro j
    have el : lidx_main_v68 (ix2 n k) j = ix2 n j :=
      funext fun a => Fin.ext (by match a with | ⟨0, _⟩ => rfl | ⟨1, _⟩ => rfl)
    have er : idx_main_v66 (idx_main_v67 (ridx_main_v68 (ix2 n k) j)) = ix3 2 j k :=
      funext fun a => Fin.ext (by
        match a with
        | ⟨0, _⟩ => rfl
        | ⟨1, _⟩ => show (j.val * 32 + k.val) / 32 % 32 = j.val; omega
        | ⟨2, _⟩ => show (j.val * 32 + k.val) % 32 = k.val; omega)
    rw [el, ref_hid1_2, val_main_v67_apply, val_main_v66_apply, er]
  have e2 : idx_main_v69 (idx_main_v70 (idx_main_v71 (idx_main_v72 (ix2 n k)))) = ix2 2 k :=
    funext fun a => Fin.ext (by
      match a with
      | ⟨0, _⟩ => rfl
      | ⟨1, _⟩ => show k.val % 32 = k.val; omega)
  rw [Finset.sum_congr rfl fun j _ => es j, e2, Ideal.maximumf_def, Ideal.addf_def, Ideal.ofBits_def,
    Ideal.ofBits_zero_f32]
  rfl

/-- The perceptron's output on row `n`: the sum over the 32 second-layer units, plus the bias. -/
theorem ref_mlp_2 (n : Fin 2097152) :
    val_main_v82 (F := Ideal) x0 x1 x2 x3 x4 x5 x6 (ix2 n 0) = mlp ⟨x1, x2, x3, x4, x5, x6⟩ 2 (newB ⟨x1, x2, x3, x4, x5, x6⟩ (x0 (ix2 n 0)) (x0 (ix2 n 1))) := by
  rw [val_main_v82_apply, val_main_v77_apply, val_main_v81_apply, val_main_v80_apply, val_main_v79_apply, val_main_v78_apply]
  have es : ∀ k : Fin 32,
      val_main_v74 (F := Ideal) x0 x1 x2 x3 x4 x5 x6 (lidx_main_v77 (ix2 n 0) k) * val_main_v76 (F := Ideal) x5 (ridx_main_v77 (ix2 n 0) k)
        = hid2 ⟨x1, x2, x3, x4, x5, x6⟩ 2 (newB ⟨x1, x2, x3, x4, x5, x6⟩ (x0 (ix2 n 0)) (x0 (ix2 n 1))) k * x5 (ix3 2 k 0) := by
    intro k
    have el : lidx_main_v77 (ix2 n 0) k = ix2 n k :=
      funext fun a => Fin.ext (by match a with | ⟨0, _⟩ => rfl | ⟨1, _⟩ => rfl)
    have er : idx_main_v75 (idx_main_v76 (ridx_main_v77 (ix2 n 0) k)) = ix3 2 k 0 :=
      funext fun a => Fin.ext (by
        match a with
        | ⟨0, _⟩ => rfl
        | ⟨1, _⟩ => show (k.val * 1 + 0) / 1 % 32 = k.val; omega
        | ⟨2, _⟩ => rfl)
    rw [el, ref_hid2_2, val_main_v76_apply, val_main_v75_apply, er]
  have e2 : idx_main_v78 (idx_main_v79 (idx_main_v80 (idx_main_v81 (ix2 n 0)))) = ix2 2 0 :=
    funext fun a => Fin.ext (by match a with | ⟨0, _⟩ => rfl | ⟨1, _⟩ => rfl)
  rw [Finset.sum_congr rfl fun k _ => es k, e2, Ideal.addf_def]
  rfl

end Cert.RefFlow

end
-- ==== Proof.RefBlock3.lean ====
/-
  The reference's fourth perceptron block (weights sliced at 3), read from the new second column, at one row.
-/
import proofs.«181282_j62749472195096_2_alg».proof.Proof.RefNewB

noncomputable section

open scoped BigOperators

namespace Cert.RefFlow

open Cert.ReferenceIdeal Cert.ReferenceIdeal.Gen Cert.ReferenceIdeal.Read Idealize.ShloMosaic Idealize.ShloMosaic.ValueIdx Cert.Flow

variable (x0 : (⟨S2097152x2, .f32⟩ : BufTy).Contents (Elt Ideal)) (x1 : (⟨S4x1x32, .f32⟩ : BufTy).Contents (Elt Ideal)) (x2 : (⟨S4x32, .f32⟩ : BufTy).Contents (Elt Ideal)) (x3 : (⟨S4x32x32, .f32⟩ : BufTy).Contents (Elt Ideal)) (x4 : (⟨S4x32, .f32⟩ : BufTy).Contents (Elt Ideal)) (x5 : (⟨S4x32x1, .f32⟩ : BufTy).Contents (Elt Ideal)) (x6 : (⟨S4x1, .f32⟩ : BufTy).Contents (Elt Ideal))

/-! ## Perceptron 3, read from the new second column `b'`

The fourth perceptron block of the reference: three matrix products, each followed by the addition of a
broadcast bias row, the first two also by a maximum with zero. Its weights are the slices `[3:4, …]` of the
six weight arrays. Each layer is read at one row `n` and one unit. -/

/-- First hidden layer, unit `j`: the product over the one input column, plus the bias, clamped at zero. -/
theorem ref_hid1_3 (n : Fin 2097152) (j : Fin 32) :
    val_main_v93 (F := Ideal) x0 x1 x2 x3 x4 x5 x6 (ix2 n j) = hid1 ⟨x1, x2, x3, x4, x5, x6⟩ 3 (newB ⟨x1, x2, x3, x4, x5, x6⟩ (x0 (ix2 n 0)) (x0 (ix2 n 1))) j := by
  rw [val_main_v93_apply, val_main_v92_apply, val_main_v87_apply, val_main_v91_apply, val_main_v90_apply, val_main_v89_apply,
    val_main_v88_apply, val_main_call6_v0_apply, val_main_call6_cst_apply, Fin.sum_univ_one,
    val_main_v86_apply, val_main_v85_apply]
  have e0 : lidx_main_v87 (ix2 n j) 0 = ix2 n 0 :=
    funext fun a => Fin.ext (by match a with | ⟨0, _⟩ => rfl | ⟨1, _⟩ => rfl)
  have e1 : idx_main_v85 (idx_main_v86 (ridx_main_v87 (ix2 n j) 0)) = ix3 3 0 j :=
    funext fun a => Fin.ext (by
      match a with
      | ⟨0, _⟩ => rfl
      | ⟨1, _⟩ => rfl
      | ⟨2, _⟩ => show (0 * 32 + j.val) % 32 = j.val; omega)
  have e2 : idx_main_v88 (idx_main_v89 (idx_main_v90 (idx_main_v91 (ix2 n j)))) = ix2 3 j :=
    funext fun a => Fin.ext (by
      match a with
      | ⟨0, _⟩ => rfl
      | ⟨1, _⟩ => show j.val % 32 = j.val; omega)
  rw [e0, ref_newB, e1, e2, Ideal.maximumf_def, Ideal.addf_def, Ideal.ofBits_def, Ideal.ofBits_zero_f32]
  rfl

/-- Second hidden layer, unit `k`: the sum over the 32 first-layer units, plus the bias, clamped at zero. -/
theorem ref_hid2_3 (n : Fin 2097152) (k : Fin 32) :
    val_main_v102 (F := Ideal) x0 x1 x2 x3 x4 x5 x6 (ix2 n k) = hid2 ⟨x1, x2, x3, x4, x5, x6⟩ 3 (newB ⟨x1, x2, x3, x4, x5, x6⟩ (x0 (ix2 n 0)) (x0 (ix2 n 1))) k := by
  rw [val_main_v102_apply, val_main_v101_apply, val_main_v96_apply, val_main_v100_apply, val_main_v99_apply, val_main_v98_apply,
    val_main_v97_apply, val_main_call7_v0_apply, val_main_call7_cst_apply]
  have es : ∀ j : Fin 32,
      val_main_v93 (F := Ideal) x0 x1 x2 x3 x4 x5 x6 (lidx_main_v96 (ix2 n k) j) * val_main_v95 (F := Ideal) x3 (ridx_main_v96 (ix2 n k) j)
        = hid1 ⟨x1, x2, x3, x4, x5, x6⟩ 3 (newB ⟨x1, x2, x3, x4, x5, x6⟩ (x0 (ix2 n 0)) (x0 (ix2 n 1))) j * x3 (ix3 3 j k) := by
    intro j
    have el : lidx_main_v96 (ix2 n k) j = ix2 n j :=
      funext fun a => Fin.ext (by match a with | ⟨0, _⟩ => rfl | ⟨1, _⟩ => rfl)
    have er : idx_main_v94 (idx_main_v95 (ridx_main_v96 (ix2 n k) j)) = ix3 3 j k :=
      funext fun a => Fin.ext (by
        match a with
        | ⟨0, _⟩ => rfl
        | ⟨1, _⟩ => show (j.val * 32 + k.val) / 32 % 32 = j.val; omega
        | ⟨2, _⟩ => show (j.val * 32 + k.val) % 32 = k.val; omega)
    rw [el, ref_hid1_3, val_main_v95_apply, val_main_v94_apply, er]
  have e2 : idx_main_v97 (idx_main_v98 (idx_main_v99 (idx_main_v100 (ix2 n k)))) = ix2 3 k :=
    funext fun a => Fin.ext (by
      match a with
      | ⟨0, _⟩ => rfl
      | ⟨1, _⟩ => show k.val % 32 = k.val; omega)
  rw [Finset.sum_congr rfl fun j _ => es j, e2, Ideal.maximumf_def, Ideal.addf_def, Ideal.ofBits_def,
    Ideal.ofBits_zero_f32]
  rfl

/-- The perceptron's output on row `n`: the sum over the 32 second-layer units, plus the bias. -/
theorem ref_mlp_3 (n : Fin 2097152) :
    val_main_v110 (F := Ideal) x0 x1 x2 x3 x4 x5 x6 (ix2 n 0) = mlp ⟨x1, x2, x3, x4, x5, x6⟩ 3 (newB ⟨x1, x2, x3, x4, x5, x6⟩ (x0 (ix2 n 0)) (x0 (ix2 n 1))) := by
  rw [val_main_v110_apply, val_main_v105_apply, val_main_v109_apply, val_main_v108_apply, val_main_v107_apply, val_main_v106_apply]
  have es : ∀ k : Fin 32,
      val_main_v102 (F := Ideal) x0 x1 x2 x3 x4 x5 x6 (lidx_main_v105 (ix2 n 0) k) * val_main_v104 (F := Ideal) x5 (ridx_main_v105 (ix2 n 0) k)
        = hid2 ⟨x1, x2, x3, x4, x5, x6⟩ 3 (newB ⟨x1, x2, x3, x4, x5, x6⟩ (x0 (ix2 n 0)) (x0 (ix2 n 1))) k * x5 (ix3 3 k 0) := by
    intro k
    have el : lidx_main_v105 (ix2 n 0) k = ix2 n k :=
      funext fun a => Fin.ext (by match a with | ⟨0, _⟩ => rfl | ⟨1, _⟩ => rfl)
    have er : idx_main_v103 (idx_main_v104 (ridx_main_v105 (ix2 n 0) k)) = ix3 3 k 0 :=
      funext fun a => Fin.ext (by
        match a with
        | ⟨0, _⟩ => rfl
        | ⟨1, _⟩ => show (k.val * 1 + 0) / 1 % 32 = k.val; omega
        | ⟨2, _⟩ => rfl)
    rw [el, ref_hid2_3, val_main_v104_apply, val_main_v103_apply, er]
  have e2 : idx_main_v106 (idx_main_v107 (idx_main_v108 (idx_main_v109 (ix2 n 0)))) = ix2 3 0 :=
    funext fun a => Fin.ext (by match a with | ⟨0, _⟩ => rfl | ⟨1, _⟩ => rfl)
  rw [Finset.sum_congr rfl fun k _ => es k, e2, Ideal.addf_def]
  rfl

end Cert.RefFlow

end
-- ==== Proof.RefFlow.lean ====
/-
  The reference's two results are the coupling flow's: `zOut` and `logDet` of the argument arrays.
-/
import proofs.«181282_j62749472195096_2_alg».proof.Proof.RefBlock2
import proofs.«181282_j62749472195096_2_alg».proof.Proof.RefBlock3

noncomputable section

open scoped BigOperators

namespace Cert.RefFlow

open Cert.ReferenceIdeal Cert.ReferenceIdeal.Gen Cert.ReferenceIdeal.Read Idealize.ShloMosaic Idealize.ShloMosaic.ValueIdx Cert.Flow

variable (x0 : (⟨S2097152x2, .f32⟩ : BufTy).Contents (Elt Ideal)) (x1 : (⟨S4x1x32, .f32⟩ : BufTy).Contents (Elt Ideal)) (x2 : (⟨S4x32, .f32⟩ : BufTy).Contents (Elt Ideal)) (x3 : (⟨S4x32x32, .f32⟩ : BufTy).Contents (Elt Ideal)) (x4 : (⟨S4x32, .f32⟩ : BufTy).Contents (Elt Ideal)) (x5 : (⟨S4x32x1, .f32⟩ : BufTy).Contents (Elt Ideal)) (x6 : (⟨S4x1, .f32⟩ : BufTy).Contents (Elt Ideal))

/-! ## The new first column and the log-determinant, at one row -/

/-- `a' = a · exp (mlp 2 b') + mlp 3 b'`: the first column's slice of `z` at row `n` is `z n 0`. -/
theorem ref_newA (n : Fin 2097152) :
    val_main_v111 (F := Ideal) x0 x1 x2 x3 x4 x5 x6 (ix2 n 0) = newA ⟨x1, x2, x3, x4, x5, x6⟩ (x0 (ix2 n 0)) (x0 (ix2 n 1)) := by
  rw [val_main_v111_apply, val_main_v84_apply, val_main_v83_apply, val_main_v0_apply, ref_mlp_2, ref_mlp_3]
  have e0 : idx_main_v0 (ix2 n 0) = ix2 n 0 :=
    funext fun a => Fin.ext (by match a with | ⟨0, _⟩ => rfl | ⟨1, _⟩ => rfl)
  rw [e0, Ideal.addf_def, Ideal.mulf_def, Ideal.hostUnary_exp_def]
  rfl

/-- `l₁ + l₂ = mlp 0 a + mlp 2 b'`. -/
theorem ref_logDetRow (n : Fin 2097152) :
    val_main_v113 (F := Ideal) x0 x1 x2 x3 x4 x5 x6 (ix2 n 0) = logDetRow ⟨x1, x2, x3, x4, x5, x6⟩ (x0 (ix2 n 0)) (x0 (ix2 n 1)) := by
  rw [val_main_v113_apply, ref_mlp_0, ref_mlp_2, Ideal.addf_def]
  rfl

/-! ## The two results, as arrays -/

/-- The first result joins the columns `a'` and `b'` along axis 1: column 0 of the join is the first piece,
    column 1 the second piece at its column 0. -/
theorem ref_zOut :
    val_main_v112 (F := Ideal) x0 x1 x2 x3 x4 x5 x6 = Cert.Flow.zOut ⟨x1, x2, x3, x4, x5, x6⟩ x0 := by
  funext i
  obtain ⟨n, q, rfl⟩ : ∃ (n : Fin 2097152) (q : Fin 2), i = ix2 n q := ⟨i 0, i 1, eq_ix2 i⟩
  unfold val_main_v112
  match q with
  | ⟨0, _⟩ =>
    refine (concatenate_pair_apply_left (t := S2097152x2) (s₁ := S2097152x1) (s₂ := S2097152x1) 1 _ _
      concatenates_S2097152x1_S2097152x1_S2097152x2_d1 _ rfl (ix2 n 0) (fun b => by
        match b with
        | ⟨0, _⟩ => rfl
        | ⟨1, _⟩ => rfl)).trans ?_
    rw [ref_newA]
    rfl
  | ⟨1, _⟩ =>
    refine (concatenate_pair_apply_right (t := S2097152x2) (s₁ := S2097152x1) (s₂ := S2097152x1) 1 _ _
      concatenates_S2097152x1_S2097152x1_S2097152x2_d1 _ rfl rfl (ix2 n 0) (fun b hb => by
        match b with
        | ⟨0, _⟩ => rfl
        | ⟨1, _⟩ => exact absurd rfl hb) rfl).trans ?_
    rw [ref_newB]
    rfl

/-- The second result is the column `l₁ + l₂` laid out as a vector: entry `n` is the column's row `n`. -/
theorem ref_logDet :
    val_main_v114 (F := Ideal) x0 x1 x2 x3 x4 x5 x6 = Cert.Flow.logDet ⟨x1, x2, x3, x4, x5, x6⟩ x0 := by
  funext i
  obtain ⟨n, rfl⟩ : ∃ n : Fin 2097152, i = ix1 n := ⟨i 0, eq_ix1 i⟩
  rw [val_main_v114_apply]
  have e : idx_main_v114 (ix1 n) = ix2 n 0 :=
    funext fun a => Fin.ext (by
      match a with
      | ⟨0, _⟩ => show n.val / 1 = n.val; omega
      | ⟨1, _⟩ => rfl)
  rw [e, ref_logDetRow]
  rfl

end Cert.RefFlow

end
-- ==== Proof.lean ====
/-
  A two-step coupling flow over 2,097,152 rows, computed two ways, ends with equal results.

  Each row `(a, b)` of `z` goes through four small perceptrons `mlp i` (1 → 32 → 32 → 1, relu):

      l₁ = mlp 0 a        b' = b · exp l₁ + mlp 1 a
      l₂ = mlp 2 b'       a' = a · exp l₂ + mlp 3 b'

  and the results are the rows `(a', b')` and the numbers `l₁ + l₂` (Proof/Flow.lean: `zOut`, `logDet`).

  The reference computes this row-major, each layer a product `x · W` of the whole `[B, ·]` table with a
  weight matrix (Proof/RefBlock0 … RefBlock3, RefNewB, RefFlow: its operations read one at a time, row by
  row, down to `zOut` and `logDet`).

  The other program transposes everything first. Its grid has sixteen points, each owning 131,072
  columns of the transposed input; at a point a loop of sixteen trips takes 8,192 columns at a time,
  computes `W ᵀ · x` layer by layer with the batch along the lanes, and stores three rows per trip.
  Lane by lane a trip computes the flow of its column (Proof/KLayers, KTrip); the trips' stores are
  restrictions of one function of the block index, so the block ends holding it (Proof/KBlock); the
  sixteen blocks tile the output arrays (Proof/KArrays); and the host's transposes before and after the
  region make the results `zOut` and `logDet` of the arguments (Proof/KMain).

  The two differ only in the order of the factors of each product. Multiplication of extended reals is
  commutative without any side condition, so the equality needs nothing of the inputs: the precondition
  is never opened. No rewrite was made when the program was idealized, so that conjunct is trivial.
-/
import proofs.«181282_j62749472195096_2_alg».proof.Defs
import proofs.«181282_j62749472195096_2_alg».proof.Proof.Gen.Kernel
import proofs.«181282_j62749472195096_2_alg».proof.Proof.Gen.Kernel.Frame
import proofs.«181282_j62749472195096_2_alg».proof.Proof.Gen.KernelIdeal
import proofs.«181282_j62749472195096_2_alg».proof.Proof.Gen.KernelIdeal.Frame
import proofs.«181282_j62749472195096_2_alg».proof.Proof.Gen.ReferenceIdeal
import proofs.«181282_j62749472195096_2_alg».proof.Proof.Gen.ReferenceIdeal.Run
import proofs.«181282_j62749472195096_2_alg».proof.Proof.Gen.ReferenceIdeal.Read
import proofs.«181282_j62749472195096_2_alg».proof.Proof.Gen.Pre_finite_inputs
import proofs.«181282_j62749472195096_2_alg».proof.Proof.KMain
import proofs.«181282_j62749472195096_2_alg».proof.Proof.RefFlow
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The program as printed runs and leaves its arguments alone. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- And the reference: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the rows `(a', b')` and the numbers `l₁ + l₂` of the flow of their arguments. -/
theorem algebraic : Cert.algebraic_KernelIdeal_ReferenceIdeal := by
  intro m ρ m' ρ' _ hagree
  refine ⟨fun c => Cert.Flow.zOut (Cert.KMain.params m c) (m ((c.tc : Thread Cert.KernelIdeal.nD Cert.KernelIdeal.τ).loc Cert.KernelIdeal.main_arg0)),
    fun c => Cert.Flow.logDet (Cert.KMain.params m c) (m ((c.tc : Thread Cert.KernelIdeal.nD Cert.KernelIdeal.τ).loc Cert.KernelIdeal.main_arg0)),
    Cert.KMain.run m ρ, ?_⟩
  refine (θ_run Cert.ReferenceIdeal.defs _ _).mono (fun _ h c => ?_) (Cert.ReferenceIdeal.Value.run (F := Ideal) m' ρ')
  obtain ⟨e0, e1, e2, e3, e4, e5, e6⟩ := hagree c
  refine ⟨?_, ?_, (h c).2.2⟩
  · rw [(h c).1, Cert.ReferenceIdeal.Read.val_main_v112_eq, Cert.RefFlow.ref_zOut, e0, e1, e2, e3, e4, e5, e6]
    rfl
  · rw [(h c).2.1, Cert.ReferenceIdeal.Read.val_main_v114_eq, Cert.RefFlow.ref_logDet, e0, e1, e2, e3, e4, e5, e6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
